-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x128x64 : Shape := ⟨4, ![16, 32, 128, 64]⟩
abbrev S128x128 : Shape := ⟨2, ![128, 128]⟩
abbrev S128x64 : Shape := ⟨2, ![128, 64]⟩
abbrev S128 : Shape := ⟨1, ![128]⟩
abbrev S_ : Shape := ⟨0, ![]⟩

class Facts : Prop where
  bcast_S_S16x32x128x64 : S_.BroadcastsInDim S16x32x128x64 (![] : Fin 0 → Fin S16x32x128x64.rank)
  reducesTo_S16x32x128x64_S_d0_1_2_3 : S16x32x128x64.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S16x32x128x64 .f32) (main_arg1 : FVec F S128x128 .f32) (main_arg2 : FVec F S128x64 .f32) (main_arg3 : FVec F S128 .f32) (main_arg4 : FVec F S128 .f32) (main_arg5 : FVec F S128 .f32) : IVec S_ 1 :=
  let main_v0 : FVec F S16x32x128x64 .f32 := Host.absf main_arg0
  let main_cst : FVec F S_ .f32 := constant S_ .f32 0x7F800000#32
  let main_v1 : FVec F S16x32x128x64 .f32 := broadcastInDim S16x32x128x64 ![] bcast_S_S16x32x128x64 main_cst
  let main_v2 : IVec S16x32x128x64 1 := cmpf .olt main_v0 main_v1
  let main_c : IVec S_ 1 := constantI S_ 1 1#1
  let main_v3 : IVec S_ 1 := (fun x v => Host.reduce IntOp.andi x v reducesTo_S16x32x128x64_S_d0_1_2_3 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S16x32x128x64 : Shape := ⟨4, ![16, 32, 128, 64]⟩
abbrev S128x128 : Shape := ⟨2, ![128, 128]⟩
abbrev S128x64 : Shape := ⟨2, ![128, 64]⟩
abbrev S128 : Shape := ⟨1, ![128]⟩
abbrev S512x128x64 : Shape := ⟨3, ![512, 128, 64]⟩
abbrev S1x128 : Shape := ⟨2, ![1, 128]⟩
abbrev S512x128x128 : Shape := ⟨3, ![512, 128, 128]⟩
abbrev S64x128x64 : Shape := ⟨3, ![64, 128, 64]⟩
abbrev S64x128x128 : Shape := ⟨3, ![64, 128, 128]⟩
abbrev S8192x64 : Shape := ⟨2, ![8192, 64]⟩
abbrev S8192x128 : Shape := ⟨2, ![8192, 128]⟩
abbrev S1x128x128 : Shape := ⟨3, ![1, 128, 128]⟩
abbrev S8192 : Shape := ⟨1, ![8192]⟩
abbrev S8192x1 : Shape := ⟨2, ![8192, 1]⟩
abbrev S16x32x128x128 : Shape := ⟨4, ![16, 32, 128, 128]⟩

abbrev nBuf : Space → Nat
  | .hbm => 14
  | .vmem => 8
  | .smem => 0
  | _ => 0

abbrev bufTy : (tb : Table) → Fin (tcTables nBuf tb) → BufTy
  | .hbm, ⟨0, _⟩ => ⟨S16x32x128x64, .f32⟩
  | .hbm, ⟨1, _⟩ => ⟨S128x128, .f32⟩
  | .hbm, ⟨2, _⟩ => ⟨S128x64, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S512x128x64, .f32⟩
  | .hbm, ⟨7, _⟩ => ⟨S1x128, .f32⟩
  | .hbm, ⟨8, _⟩ => ⟨S128x128, .f32⟩
  | .hbm, ⟨9, _⟩ => ⟨S128x128, .f32⟩
  | .hbm, ⟨10, _⟩ => ⟨S1x128, .f32⟩
  | .hbm, ⟨11, _⟩ => ⟨S1x128, .f32⟩
  | .hbm, ⟨12, _⟩ => ⟨S512x128x128, .f32⟩
  | .hbm, ⟨13, _⟩ => ⟨S16x32x128x128, .f32⟩
  | .local _ .vmem, ⟨0, _⟩ => ⟨S64x128x64, .f32⟩
  | .local _ .vmem, ⟨1, _⟩ => ⟨S64x128x64, .f32⟩
  | .local _ .vmem, ⟨2, _⟩ => ⟨S128x64, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S64x128x128, .f32⟩
  | .local _ .vmem, ⟨7, _⟩ => ⟨S64x128x128, .f32⟩
  | _, _ => ⟨S16x32x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x32x128x64_S512x128x64 : S16x32x128x64.ShapeCasts S512x128x64
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  shapeCasts_S128_S1x128 : S128.ShapeCasts S1x128
  inb_S64x128x64_S64x128x64_0_0_0 : ∀ a, (![0, 0, 0] : Fin 3 → Nat) a + S64x128x64.size a ≤ S64x128x64.size a
  h_S64x128x64 : 0 < S64x128x64.numel
  shapeCasts_S64x128x64_S64x128x64 : S64x128x64.ShapeCasts S64x128x64
  shapeCasts_S64x128x64_S8192x64 : S64x128x64.ShapeCasts S8192x64
  inb_S128x64_S128x64_0_0 : ∀ a, (![0, 0] : Fin 2 → Nat) a + S128x64.size a ≤ S128x64.size a
  h_S128x64 : 0 < S128x64.numel
  shapeCasts_S8192x128_S64x128x128 : S8192x128.ShapeCasts S64x128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S1x128x128 : S128x128.ShapeCasts S1x128x128
  broadcasts_S1x128x128_S64x128x128 : S1x128x128.Broadcasts S64x128x128
  shapeCasts_S64x128x128_S8192x128 : S64x128x128.ShapeCasts S8192x128
  reduces_S8192x128_S8192 : S8192x128.Reduces [1] S8192
  shapeCasts_S8192_S8192x1 : S8192.ShapeCasts S8192x1
  broadcasts_S8192x1_S8192x128 : S8192x1.Broadcasts S8192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S64x128x128_S64x128x128_0_0_0 : ∀ a, (![0, 0, 0] : Fin 3 → Nat) a + S64x128x128.size a ≤ S64x128x128.size a
  h_S64x128x128 : 0 < S64x128x128.numel
  shapeCasts_S512x128x128_S16x32x128x128 : S512x128x128.ShapeCasts S16x32x128x128
  dot_S8192x64_S128x64_S8192x128_1_1_0_0_n_n_wf : DotDims.WF S8192x64 S128x64 S8192x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x64.size a ≤ S512x128x64.size a
  hwx0_0 : ∀ i : grid0.Coords, EltTy.bits .f32 = 32 ∨ (Rect.block (s := S512x128x64) S64x128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x128x128.size a ≤ S512x128x128.size a
  hwx0_5 : ∀ i : grid0.Coords, EltTy.bits .f32 = 32 ∨ (Rect.block (s := S512x128x128) S64x128x128.size (cc0_transform_5 i) (hinb0_5 i)).WholeWords (EltTy.packing .f32)

variable [Facts₀]

def dot_S8192x64_S128x64_S8192x128_1_1_0_0_n_n : DotDims S8192x64 S128x64 S8192x128 where
  lhsContracting := [1]
  rhsContracting := [1]
  lhsNonContracting := [0]
  rhsNonContracting := [0]
  lhsBatch := []
  rhsBatch := []
  wf := dot_S8192x64_S128x64_S8192x128_1_1_0_0_n_n_wf

abbrev win0_0 : Pipeline.Window sig grid0 :=
  Pipeline.Window.ofSpec (Memref.whole main_v0) S64x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S64x128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x32x128x64 : Shape := ⟨4, ![16, 32, 128, 64]⟩
abbrev S128x128 : Shape := ⟨2, ![128, 128]⟩
abbrev S128x64 : Shape := ⟨2, ![128, 64]⟩
abbrev S128 : Shape := ⟨1, ![128]⟩
abbrev S1x1x128 : Shape := ⟨3, ![1, 1, 128]⟩
abbrev S_ : Shape := ⟨0, ![]⟩
abbrev S1x1x128x1 : Shape := ⟨4, ![1, 1, 128, 1]⟩
abbrev S1 : Shape := ⟨1, ![1]⟩
abbrev S1x1x1x1 : Shape := ⟨4, ![1, 1, 1, 1]⟩
abbrev S1x1x128x128 : Shape := ⟨4, ![1, 1, 128, 128]⟩
abbrev S16x32x128x128 : Shape := ⟨4, ![16, 32, 128, 128]⟩
abbrev S1x1x1x128 : Shape := ⟨4, ![1, 1, 1, 128]⟩
abbrev S16x32x128 : Shape := ⟨3, ![16, 32, 128]⟩
abbrev S16x32x128x1 : Shape := ⟨4, ![16, 32, 128, 1]⟩

abbrev nBuf : Space → Nat
  | .hbm => 66
  | .vmem => 0
  | .smem => 0
  | _ => 0

abbrev bufTy : (tb : Table) → Fin (tcTables nBuf tb) → BufTy
  | .hbm, ⟨0, _⟩ => ⟨S16x32x128x64, .f32⟩
  | .hbm, ⟨1, _⟩ => ⟨S128x128, .f32⟩
  | .hbm, ⟨2, _⟩ => ⟨S128x64, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .i32⟩
  | .hbm, ⟨7, _⟩ => ⟨S1x1x128, .i32⟩
  | .hbm, ⟨8, _⟩ => ⟨S_, .i32⟩
  | .hbm, ⟨9, _⟩ => ⟨S1x1x128, .i32⟩
  | .hbm, ⟨10, _⟩ => ⟨S1x1x128, .i1⟩
  | .hbm, ⟨11, _⟩ => ⟨S_, .i32⟩
  | .hbm, ⟨12, _⟩ => ⟨S1x1x128, .i32⟩
  | .hbm, ⟨13, _⟩ => ⟨S1x1x128, .i32⟩
  | .hbm, ⟨14, _⟩ => ⟨S1x1x128, .i32⟩
  | .hbm, ⟨15, _⟩ => ⟨S1x1x128x1, .i32⟩
  | .hbm, ⟨16, _⟩ => ⟨S1, .i32⟩
  | .hbm, ⟨17, _⟩ => ⟨S_, .i32⟩
  | .hbm, ⟨18, _⟩ => ⟨S1x1x128x1, .i32⟩
  | .hbm, ⟨19, _⟩ => ⟨S1x1x128x1, .i1⟩
  | .hbm, ⟨20, _⟩ => ⟨S1x1x1x1, .i32⟩
  | .hbm, ⟨21, _⟩ => ⟨S1x1x128x1, .i32⟩
  | .hbm, ⟨22, _⟩ => ⟨S1x1x128x1, .i1⟩
  | .hbm, ⟨23, _⟩ => ⟨S1x1x128x1, .i1⟩
  | .hbm, ⟨24, _⟩ => ⟨S_, .i1⟩
  | .hbm, ⟨25, _⟩ => ⟨S1x1x128, .i1⟩
  | .hbm, ⟨26, _⟩ => ⟨S1x1x128x128, .f32⟩
  | .hbm, ⟨27, _⟩ => ⟨S1x1x128x128, .i1⟩
  | .hbm, ⟨28, _⟩ => ⟨S_, .f32⟩
  | .hbm, ⟨29, _⟩ => ⟨S1x1x128x128, .f32⟩
  | .hbm, ⟨30, _⟩ => ⟨S1x1x128x128, .f32⟩
  | .hbm, ⟨31, _⟩ => ⟨S16x32x128x128, .f32⟩
  | .hbm, ⟨32, _⟩ => ⟨S1x1x1x128, .f32⟩
  | .hbm, ⟨33, _⟩ => ⟨S16x32x128x128, .f32⟩
  | .hbm, ⟨34, _⟩ => ⟨S16x32x128x128, .f32⟩
  | .hbm, ⟨35, _⟩ => ⟨S16x32x128x128, .f32⟩
  | .hbm, ⟨36, _⟩ => ⟨S16x32x128x128, .f32⟩
  | .hbm, ⟨37, _⟩ => ⟨S_, .f32⟩
  | .hbm, ⟨38, _⟩ => ⟨S16x32x128, .f32⟩
  | .hbm, ⟨39, _⟩ => ⟨S16x32x128x1, .f32⟩
  | .hbm, ⟨40, _⟩ => ⟨S_, .f32⟩
  | .hbm, ⟨41, _⟩ => ⟨S16x32x128x1, .f32⟩
  | .hbm, ⟨42, _⟩ => ⟨S16x32x128x1, .f32⟩
  | .hbm, ⟨43, _⟩ => ⟨S16x32x128x128, .f32⟩
  | .hbm, ⟨44, _⟩ => ⟨S16x32x128x128, .f32⟩
  | .hbm, ⟨45, _⟩ => ⟨S16x32x128x128, .f32⟩
  | .hbm, ⟨46, _⟩ => ⟨S_, .f32⟩
  | .hbm, ⟨47, _⟩ => ⟨S16x32x128, .f32⟩
  | .hbm, ⟨48, _⟩ => ⟨S16x32x128x1, .f32⟩
  | .hbm, ⟨49, _⟩ => ⟨S_, .f32⟩
  | .hbm, ⟨50, _⟩ => ⟨S16x32x128x1, .f32⟩
  | .hbm, ⟨51, _⟩ => ⟨S16x32x128x1, .f32⟩
  | .hbm, ⟨52, _⟩ => ⟨S16x32x128x128, .f32⟩
  | .hbm, ⟨53, _⟩ => ⟨S16x32x128x128, .f32⟩
  | .hbm, ⟨54, _⟩ => ⟨S_, .f32⟩
  | .hbm, ⟨55, _⟩ => ⟨S16x32x128x1, .f32⟩
  | .hbm, ⟨56, _⟩ => ⟨S16x32x128x1, .f32⟩
  | .hbm, ⟨57, _⟩ => ⟨S16x32x128x1, .f32⟩
  | .hbm, ⟨58, _⟩ => ⟨S16x32x128x128, .f32⟩
  | .hbm, ⟨59, _⟩ => ⟨S16x32x128x128, .f32⟩
  | .hbm, ⟨60, _⟩ => ⟨S1x1x1x128, .f32⟩
  | .hbm, ⟨61, _⟩ => ⟨S16x32x128x128, .f32⟩
  | .hbm, ⟨62, _⟩ => ⟨S16x32x128x128, .f32⟩
  | .hbm, ⟨63, _⟩ => ⟨S1x1x1x128, .f32⟩
  | .hbm, ⟨64, _⟩ => ⟨S16x32x128x128, .f32⟩
  | .hbm, ⟨65, _⟩ => ⟨S16x32x128x128, .f32⟩
  | _, _ => ⟨S16x32x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst : Ref sig .tc := ⟨.hbm, 37, rfl⟩
abbrev main_v9 : Ref sig .tc := ⟨.hbm, 38, rfl⟩
abbrev main_v10 : Ref sig .tc := ⟨.hbm, 39, rfl⟩
abbrev main_cst_0 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_1 : Ref sig .tc := ⟨.hbm, 46, rfl⟩
abbrev main_v16 : Ref sig .tc := ⟨.hbm, 47, rfl⟩
abbrev main_v17 : Ref sig .tc := ⟨.hbm, 48, rfl⟩
abbrev main_cst_2 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S_S1x1x128 : S_.BroadcastsInDim S1x1x128 (![] : Fin 0 → Fin S1x1x128.rank)
  bcast_S1x1x128_S1x1x128x1_0_1_2 : S1x1x128.BroadcastsInDim S1x1x128x1 (![0, 1, 2] : Fin 3 → Fin S1x1x128x1.rank)
  bcast_S_S1x1x128x1 : S_.BroadcastsInDim S1x1x128x1 (![] : Fin 0 → Fin S1x1x128x1.rank)
  bcast_S1_S1x1x1x1_3 : S1.BroadcastsInDim S1x1x1x1 (![3] : Fin 1 → Fin S1x1x1x1.rank)
  bcast_S1x1x1x1_S1x1x128x1_0_1_2_3 : S1x1x1x1.BroadcastsInDim S1x1x128x1 (![0, 1, 2, 3] : Fin 4 → Fin S1x1x128x1.rank)
  reducesTo_S1x1x128x1_S1x1x128_d3 : S1x1x128x1.ReducesTo [3] S1x1x128
  h_S_ : 0 < S_.numel
  bcast_S1x1x128_S1x1x128x128_0_1_2 : S1x1x128.BroadcastsInDim S1x1x128x128 (![0, 1, 2] : Fin 3 → Fin S1x1x128x128.rank)
  bcast_S_S1x1x128x128 : S_.BroadcastsInDim S1x1x128x128 (![] : Fin 0 → Fin S1x1x128x128.rank)
  bcast_S128_S1x1x1x128_3 : S128.BroadcastsInDim S1x1x1x128 (![3] : Fin 1 → Fin S1x1x1x128.rank)
  bcast_S1x1x1x128_S16x32x128x128_0_1_2_3 : S1x1x1x128.BroadcastsInDim S16x32x128x128 (![0, 1, 2, 3] : Fin 4 → Fin S16x32x128x128.rank)
  bcast_S1x1x128x128_S16x32x128x128_0_1_2_3 : S1x1x128x128.BroadcastsInDim S16x32x128x128 (![0, 1, 2, 3] : Fin 4 → Fin S16x32x128x128.rank)
  reducesTo_S16x32x128x128_S16x32x128_d3 : S16x32x128x128.ReducesTo [3] S16x32x128
  bcast_S16x32x128_S16x32x128x1_0_1_2 : S16x32x128.BroadcastsInDim S16x32x128x1 (![0, 1, 2] : Fin 3 → Fin S16x32x128x1.rank)
  bcast_S_S16x32x128x1 : S_.BroadcastsInDim S16x32x128x1 (![] : Fin 0 → Fin S16x32x128x1.rank)
  bcast_S16x32x128x1_S16x32x128x128_0_1_2_3 : S16x32x128x1.BroadcastsInDim S16x32x128x128 (![0, 1, 2, 3] : Fin 4 → Fin S16x32x128x128.rank)
  gather_S128x128_S1x1x128x1_S1x1x128x128_3_0_n_n_0_3_1128_wf : GatherDims.WF S128x128 S1x1x128x1 S1x1x128x128 [3] [0] [] [0] [] 3 ![1, 128]
  dot_S16x32x128x64_S128x64_S16x32x128x128_3_1_012_0_n_n_wf : DotDims.WF S16x32x128x64 S128x64 S16x32x128x128 [3] [1] [0, 1, 2] [0] [] []

variable [Facts₀]

def gather_S128x128_S1x1x128x1_S1x1x128x128_3_0_n_n_0_3_1128 : GatherDims S128x128 S1x1x128x1 S1x1x128x128 where
  offsetDims := [3]
  collapsedSliceDims := [0]
  operandBatchingDims := []
  startIndicesBatchingDims := []
  startIndexMap := [0]
  indexVectorDim := 3
  sliceSizes := ![1, 128]
  wf := gather_S128x128_S1x1x128x1_S1x1x128x128_3_0_n_n_0_3_1128_wf
def dot_S16x32x128x64_S128x64_S16x32x128x128_3_1_012_0_n_n : DotDims S16x32x128x64 S128x64 S16x32x128x128 where
  lhsContracting := [3]
  rhsContracting := [1]
  lhsNonContracting := [0, 1, 2]
  rhsNonContracting := [0]
  lhsBatch := []
  rhsBatch := []
  wf := dot_S16x32x128x64_S128x64_S16x32x128x128_3_1_012_0_n_n_wf

class Facts : Prop extends Facts₀ where

variable [Facts]
-- ==== Proof.LNSpec.lean ====
/-
  The mathematics both programs compute, stated once over plain coordinates.

  For a token (n, c, l) the pre-normalisation row is  y d = (Σ_p x[n,c,l,p] · W[d,p]) + bias terms,
  where the bias terms are the linear bias b[d] and the position embedding emb[l,d].  The row is then
  layer-normalised over d:  mean = (Σ_d y d) / 128,  var = (Σ_d (y d − mean)²) / 128, and
  out d = (y d − mean) / sqrt(var + ε) · γ d + β d.
  One program divides by the square root, the other multiplies by the reciprocal square root; one adds
  b before emb, the other adds (emb + b) at once.  Both readings are stated here over the extended reals.
-/
import Idealize.ShloMosaic.PureOps.Ideal
import Idealize.ShloMosaic.Lib.ValueIdx

noncomputable section

namespace Cert.LNSpec

open Idealize.ShloMosaic Idealize.ShloMosaic.ValueIdx

/-- The divisor 128 (the row length) and the variance offset ε, as the f32 words both programs print. -/
def c128 : EReal := Ideal.ofBits .f32 0x43000000#32
def eps : EReal := Ideal.ofBits .f32 0x3727C5AC#32

/-- The mean of a row of 128 entries. -/
def rowMean (y : Fin 128 → EReal) : EReal := Ideal.div (∑ d : Fin 128, y d) c128

/-- The (biased) variance of a row: the mean of the squared deviations. -/
def rowVar (y : Fin 128 → EReal) : EReal :=
  Ideal.div (∑ d : Fin 128, (y d - rowMean y) * (y d - rowMean y)) c128

/-- Layer normalisation of a row, dividing by the square root. -/
def lnDiv (y g bt : Fin 128 → EReal) (d : Fin 128) : EReal :=
  Ideal.div (y d - rowMean y) (Ideal.sqrt (rowVar y + eps)) * g d + bt d

/-- Layer normalisation of a row, multiplying by the reciprocal square root. -/
def lnRsqrt (y g bt : Fin 128 → EReal) (d : Fin 128) : EReal :=
  (y d - rowMean y) * Ideal.rsqrt (rowVar y + eps) * g d + bt d

/-- The projection of token (n, c, l) onto model coordinate d: Σ_p x[n,c,l,p] · W[d,p]. -/
def proj (x : FVec Ideal ⟨4, ![16, 32, 128, 64]⟩ .f32) (W : FVec Ideal ⟨2, ![128, 64]⟩ .f32)
    (n : Fin 16) (c : Fin 32) (l : Fin 128) (d : Fin 128) : EReal :=
  ∑ p : Fin 64, x (ix4 n c l p) * W (ix2 d p)

/-- The row before normalisation, bias first and embedding second: (proj + b) + emb. -/
def rowBiasThenEmb (x : FVec Ideal ⟨4, ![16, 32, 128, 64]⟩ .f32) (emb : FVec Ideal ⟨2, ![128, 128]⟩ .f32)
    (W : FVec Ideal ⟨2, ![128, 64]⟩ .f32) (b : FVec Ideal ⟨1, ![128]⟩ .f32)
    (n : Fin 16) (c : Fin 32) (l : Fin 128) : Fin 128 → EReal :=
  fun d => (proj x W n c l d + b (ix1 d)) + emb (ix2 l d)

/-- The row before normalisation with the bias folded into the table: proj + (emb + b). -/
def rowFoldedBias (x : FVec Ideal ⟨4, ![16, 32, 128, 64]⟩ .f32) (emb : FVec Ideal ⟨2, ![128, 128]⟩ .f32)
    (W : FVec Ideal ⟨2, ![128, 64]⟩ .f32) (b : FVec Ideal ⟨1, ![128]⟩ .f32)
    (n : Fin 16) (c : Fin 32) (l : Fin 128) : Fin 128 → EReal :=
  fun d => proj x W n c l d + (emb (ix2 l d) + b (ix1 d))

/-- The whole result, in the reading that divides by the square root and adds the bias first. -/
def outDiv (x : FVec Ideal ⟨4, ![16, 32, 128, 64]⟩ .f32) (emb : FVec Ideal ⟨2, ![128, 128]⟩ .f32)
    (W : FVec Ideal ⟨2, ![128, 64]⟩ .f32) (b g bt : FVec Ideal ⟨1, ![128]⟩ .f32) :
    FVec Ideal ⟨4, ![16, 32, 128, 128]⟩ .f32 :=
  fun i => lnDiv (rowBiasThenEmb x emb W b (i 0) (i 1) (i 2)) (fun d => g (ix1 d)) (fun d => bt (ix1 d)) (i 3)

/-- The whole result, in the reading that multiplies by the reciprocal square root and folds the bias. -/
def outRsqrt (x : FVec Ideal ⟨4, ![16, 32, 128, 64]⟩ .f32) (emb : FVec Ideal ⟨2, ![128, 128]⟩ .f32)
    (W : FVec Ideal ⟨2, ![128, 64]⟩ .f32) (b g bt : FVec Ideal ⟨1, ![128]⟩ .f32) :
    FVec Ideal ⟨4, ![16, 32, 128, 128]⟩ .f32 :=
  fun i => lnRsqrt (rowFoldedBias x emb W b (i 0) (i 1) (i 2)) (fun d => g (ix1 d)) (fun d => bt (ix1 d)) (i 3)

end Cert.LNSpec

end
-- ==== Proof.KerArray.lean ====
/-
  The kernel's output array as one function of the five arrays its windows read.

  The region reads the tokens as 512 groups of 128 (array A0), the weights (A1), the table with the bias folded
  in (A2), and the scale and shift as one-row arrays (A3, A4).  Entry (g, l, d) of the output is the layer
  normalisation, in the reciprocal-square-root reading, of the row  d' ↦ Σ_p A0[g,l,p] · A1[d',p] + A2[l,d'].
-/
import proofs.«170738_g9354438771293_cont_9to1_m_169_2_alg».proof.Proof.Gen.KernelIdeal
import proofs.«170738_g9354438771293_cont_9to1_m_169_2_alg».proof.Proof.LNSpec

noncomputable section

open scoped BigOperators

namespace Cert.KernelIdeal.KerValue

open Cert.KernelIdeal Idealize.ShloMosaic Idealize.ShloMosaic.ValueIdx Cert.LNSpec

/-- The row of token (g, l) before normalisation. -/
def kerRow (A0 : FVec Ideal S512x128x64 .f32) (A1 : FVec Ideal S128x64 .f32) (A2 : FVec Ideal S128x128 .f32)
    (g : Fin 512) (l : Fin 128) : Fin 128 → EReal :=
  fun d' => (∑ p : Fin 64, A0 (ix3 g l p) * A1 (ix2 d' p)) + A2 (ix2 l d')

/-- The output array. -/
def kerArray (A0 : FVec Ideal S512x128x64 .f32) (A1 : FVec Ideal S128x64 .f32) (A2 : FVec Ideal S128x128 .f32)
    (A3 A4 : FVec Ideal S1x128 .f32) : FVec Ideal S512x128x128 .f32 :=
  fun i => lnRsqrt (kerRow A0 A1 A2 (i 0) (i 1)) (fun d' => A3 (ix2 (0 : Fin 1) d')) (fun d' => A4 (ix2 (0 : Fin 1) d')) (i 2)

theorem kerArray_apply (A0 : FVec Ideal S512x128x64 .f32) (A1 : FVec Ideal S128x64 .f32) (A2 : FVec Ideal S128x128 .f32)
    (A3 A4 : FVec Ideal S1x128 .f32) (g : Fin 512) (l : Fin 128) (d : Fin 128) :
    kerArray A0 A1 A2 A3 A4 (ix3 g l d)
      = lnRsqrt (kerRow A0 A1 A2 g l) (fun d' => A3 (ix2 (0 : Fin 1) d')) (fun d' => A4 (ix2 (0 : Fin 1) d')) d := rfl

end Cert.KernelIdeal.KerValue

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.KerStages.lean ====
/-
  The kernel body's arithmetic, grouped by meaning and read at an index.

  One grid point handles a block of 64 groups of 128 tokens, viewed as 8192 rows: row q = r · 128 + l is token l
  of group r.  The body projects each row (x · Wᵀ), adds the table row of its token, and layer-normalises the
  row: mean, centred row, variance, product with the reciprocal square root of (variance + ε), scale, shift.
-/
import proofs.«170738_g9354438771293_cont_9to1_m_169_2_alg».proof.Proof.Gen.KernelIdeal
import proofs.«170738_g9354438771293_cont_9to1_m_169_2_alg».proof.Proof.LNSpec
import proofs.«170738_g9354438771293_cont_9to1_m_169_2_alg».proof.Proof.LibRowBlocks

noncomputable section

open scoped BigOperators

namespace Cert.KernelIdeal.KerValue

open Cert.KernelIdeal Cert.KernelIdeal.Gen Idealize.ShloMosaic Idealize.ShloMosaic.ValueIdx Cert.RowBlocks Cert.LNSpec

/-- The rows before normalisation: the block's projection plus the table, as 8192 rows of 128. -/
def rows (x0 : FVec Ideal S64x128x64 .f32) (x1 : FVec Ideal S128x64 .f32) (x2 : FVec Ideal S128x128 .f32) :
    FVec Ideal S8192x128 .f32 :=
  have v1 : FVec Ideal S64x128x64 .f32 := shapeCast S64x128x64 x0 shapeCasts_S64x128x64_S64x128x64
  have v2 : FVec Ideal S8192x64 .f32 := shapeCast S8192x64 v1 shapeCasts_S64x128x64_S8192x64
  have cst : FVec Ideal S8192x128 .f32 := constant S8192x128 .f32 0x00000000#32
  have v4 : FVec Ideal S8192x128 .f32 := matmul dot_S8192x64_S128x64_S8192x128_1_1_0_0_n_n none v2 x1 cst
  have v5 : FVec Ideal S64x128x128 .f32 := shapeCast S64x128x128 v4 shapeCasts_S8192x128_S64x128x128
  have v7 : FVec Ideal S128x128 .f32 := shapeCast S128x128 x2 shapeCasts_S128x128_S128x128
  have v8 : FVec Ideal S1x128x128 .f32 := shapeCast S1x128x128 v7 shapeCasts_S128x128_S1x128x128
  have v9 : FVec Ideal S64x128x128 .f32 := broadcastTo S64x128x128 v8 broadcasts_S1x128x128_S64x128x128
  have v10 : FVec Ideal S64x128x128 .f32 := addf v5 v9
  shapeCast S8192x128 v10 shapeCasts_S64x128x128_S8192x128

/-- The mean of each row, as a column. -/
def meanCol (y : FVec Ideal S8192x128 .f32) : FVec Ideal S8192x1 .f32 :=
  have v12 : FVec Ideal S8192 .f32 := multiReduction .add [1] S8192 y 0x00000000#32 reduces_S8192x128_S8192 (.inl rfl) rfl
  have v13 : FVec Ideal S8192x1 .f32 := shapeCast S8192x1 v12 shapeCasts_S8192_S8192x1
  have v14 : FVec Ideal S8192x1 .f32 := broadcast S8192x1 (Scalar.ofBits .f32 0x43000000#32 : Ideal .f32)
  divf v13 v14

/-- Each row minus its mean. -/
def centredRows (y : FVec Ideal S8192x128 .f32) : FVec Ideal S8192x128 .f32 :=
  have v16 : FVec Ideal S8192x128 .f32 := broadcastTo S8192x128 (meanCol y) broadcasts_S8192x1_S8192x128
  subf y v16

/-- The mean of each row's squared deviations, as a column. -/
def varCol (y : FVec Ideal S8192x128 .f32) : FVec Ideal S8192x1 .f32 :=
  have v18 : FVec Ideal S8192x128 .f32 := mulf (centredRows y) (centredRows y)
  have v19 : FVec Ideal S8192 .f32 := multiReduction .add [1] S8192 v18 0x00000000#32 reduces_S8192x128_S8192 (.inl rfl) rfl
  have v20 : FVec Ideal S8192x1 .f32 := shapeCast S8192x1 v19 shapeCasts_S8192_S8192x1
  have v21 : FVec Ideal S8192x1 .f32 := broadcast S8192x1 (Scalar.ofBits .f32 0x43000000#32 : Ideal .f32)
  divf v20 v21

/-- The normalised, scaled and shifted rows, back as 64 groups of 128 tokens. -/
def normalisedBlock (y : FVec Ideal S8192x128 .f32) (x3 x4 : FVec Ideal S1x128 .f32) : FVec Ideal S64x128x128 .f32 :=
  have v23 : FVec Ideal S8192x1 .f32 := broadcast S8192x1 (Scalar.ofBits .f32 0x3727C5AC#32 : Ideal .f32)
  have v24 : FVec Ideal S8192x1 .f32 := addf (varCol y) v23
  have v25 : FVec Ideal S8192x1 .f32 := rsqrt v24
  have v26 : FVec Ideal S8192x128 .f32 := broadcastTo S8192x128 v25 broadcasts_S8192x1_S8192x128
  have v27 : FVec Ideal S8192x128 .f32 := mulf (centredRows y) v26
  have v29 : FVec Ideal S1x128 .f32 := shapeCast S1x128 x3 shapeCasts_S1x128_S1x128
  have v30 : FVec Ideal S8192x128 .f32 := broadcastTo S8192x128 v29 broadcasts_S1x128_S8192x128
  have v31 : FVec Ideal S8192x128 .f32 := mulf v27 v30
  have v33 : FVec Ideal S1x128 .f32 := shapeCast S1x128 x4 shapeCasts_S1x128_S1x128
  have v34 : FVec Ideal S8192x128 .f32 := broadcastTo S8192x128 v33 broadcasts_S1x128_S8192x128
  have v35 : FVec Ideal S8192x128 .f32 := addf v31 v34
  shapeCast S64x128x128 v35 shapeCasts_S8192x128_S64x128x128

end Cert.KernelIdeal.KerValue

end
-- ==== Proof.KerRead.lean ====
/-
  The stages of the kernel body's row computation read at a row and a column: each row of the block is the
  layer normalisation (in the reciprocal-square-root reading) of its projection plus its token's table row.
-/
import proofs.«170738_g9354438771293_cont_9to1_m_169_2_alg».proof.Proof.KerStages

noncomputable section

open scoped BigOperators

namespace Cert.KernelIdeal.KerValue

open Cert.KernelIdeal Cert.KernelIdeal.Gen Idealize.ShloMosaic Idealize.ShloMosaic.ValueIdx Cert.RowBlocks Cert.LNSpec

/-- Row q = r · 128 + l before normalisation: the projection of token (r, l) plus row l of the table. -/
theorem rows_apply (x0 : FVec Ideal S64x128x64 .f32) (x1 : FVec Ideal S128x64 .f32) (x2 : FVec Ideal S128x128 .f32)
    (r : Fin 64) (l : Fin 128) (d : Fin 128) (q : Fin 8192) (hq : q.val = r.val * 128 + l.val) :
    rows x0 x1 x2 (ix2 q d) = (∑ p : Fin 64, x0 (ix3 r l p) * x1 (ix2 d p)) + x2 (ix2 l d) := by
  dsimp only [rows]
  refine (shapeCast_merge_apply _ shapeCasts_S64x128x128_S8192x128 r l d q hq).trans ?_
  show shapeCast S64x128x128 _ _ (ix3 r l d) + broadcastTo S64x128x128 _ _ (ix3 r l d) = _
  rw [shapeCast_split_apply _ shapeCasts_S8192x128_S64x128x128 r l d q hq,
    matmul_abT_apply _ rfl rfl rfl rfl rfl rfl,
    broadcastTo_groups_apply, shapeCast_ab_1ab_apply, shapeCast_self, shapeCast_self]
  refine congrArg (· + x2 (ix2 l d)) (Finset.sum_congr rfl fun p _ => ?_)
  rw [shapeCast_merge_apply _ shapeCasts_S64x128x64_S8192x64 r l p q hq]

/-- The mean column at row q is the mean of row q. -/
theorem meanCol_apply (y : FVec Ideal S8192x128 .f32) (q : Fin 8192) (u : Fin 1) :
    meanCol y (ix2 q u) = rowMean (fun d => y (ix2 q d)) := by
  dsimp only [meanCol]
  show Ideal.div (shapeCast S8192x1 _ _ (ix2 q u)) (Ideal.ofBits .f32 0x43000000#32) = _
  refine congrArg (Ideal.div · _) ?_
  refine (shapeCast_col_apply _ shapeCasts_S8192_S8192x1 q u).trans ?_
  exact rowSum_apply y reduces_S8192x128_S8192 _ _ q

/-- A centred row entry: the entry minus its row's mean. -/
theorem centredRows_apply (y : FVec Ideal S8192x128 .f32) (q : Fin 8192) (d : Fin 128) :
    centredRows y (ix2 q d) = y (ix2 q d) - rowMean (fun d => y (ix2 q d)) := by
  dsimp only [centredRows]
  show y (ix2 q d) - broadcastTo S8192x128 _ _ (ix2 q d) = _
  rw [broadcastTo_col_apply, meanCol_apply]

/-- The variance column at row q is the variance of row q. -/
theorem varCol_apply (y : FVec Ideal S8192x128 .f32) (q : Fin 8192) (u : Fin 1) :
    varCol y (ix2 q u) = rowVar (fun d => y (ix2 q d)) := by
  dsimp only [varCol]
  show Ideal.div (shapeCast S8192x1 _ _ (ix2 q u)) (Ideal.ofBits .f32 0x43000000#32) = _
  refine congrArg (Ideal.div · _) ?_
  refine (shapeCast_col_apply _ shapeCasts_S8192_S8192x1 q u).trans ?_
  refine (rowSum_apply (mulf (centredRows y) (centredRows y)) reduces_S8192x128_S8192 _ _ q).trans ?_
  refine Finset.sum_congr rfl fun d _ => ?_
  show centredRows y (ix2 q d) * centredRows y (ix2 q d) = _
  rw [centredRows_apply]

/-- The normalised block at token (r, l): the layer normalisation of row q = r · 128 + l. -/
theorem normalisedBlock_apply (y : FVec Ideal S8192x128 .f32) (x3 x4 : FVec Ideal S1x128 .f32)
    (r : Fin 64) (l : Fin 128) (d : Fin 128) (q : Fin 8192) (hq : q.val = r.val * 128 + l.val) :
    normalisedBlock y x3 x4 (ix3 r l d)
      = lnRsqrt (fun d => y (ix2 q d)) (fun d => x3 (ix2 (0 : Fin 1) d)) (fun d => x4 (ix2 (0 : Fin 1) d)) d := by
  dsimp only [normalisedBlock]
  refine (shapeCast_split_apply _ shapeCasts_S8192x128_S64x128x128 r l d q hq).trans ?_
  show centredRows y (ix2 q d) * broadcastTo S8192x128 _ _ (ix2 q d) * broadcastTo S8192x128 _ _ (ix2 q d)
      + broadcastTo S8192x128 _ _ (ix2 q d) = _
  rw [broadcastTo_col_apply, broadcastTo_1b_ab_apply, broadcastTo_1b_ab_apply, shapeCast_self, shapeCast_self,
    centredRows_apply]
  show _ * Ideal.rsqrt (varCol y (ix2 q (0 : Fin 1)) + Ideal.ofBits .f32 0x3727C5AC#32) * _ + _ = _
  rw [varCol_apply]
  rfl

end Cert.KernelIdeal.KerValue

end
-- ==== Proof.KerPayload.lean ====
/-
  The kernel body's stored value is the stages of the row computation, composed.
-/
import proofs.«170738_g9354438771293_cont_9to1_m_169_2_alg».proof.Proof.Gen.KernelIdeal.Skeleton
import proofs.«170738_g9354438771293_cont_9to1_m_169_2_alg».proof.Proof.KerStages

noncomputable section

namespace Cert.KernelIdeal.KerValue

open Cert.KernelIdeal Cert.KernelIdeal.Gen Idealize.ShloMosaic

/-- The body's one stored value, as a function of the five loaded blocks, is the normalised block of their rows. -/
theorem pay_eq_stages (x0 : Vec Ideal S64x128x64 .f32) (x1 : Vec Ideal S128x64 .f32) (x2 : Vec Ideal S128x128 .f32)
    (x3 x4 : Vec Ideal S1x128 .f32) :
    k0_pay1 (F := Ideal) x0 x1 x2 x3 x4 = normalisedBlock (rows x0 x1 x2) x3 x4 := by
  unfold k0_pay1 normalisedBlock varCol centredRows meanCol rows
  rfl

end Cert.KernelIdeal.KerValue

end
-- ==== Proof.KerBlocks.lean ====
/-
  From blocks to the array.

  Grid point t handles groups 64·t … 64·t + 63: its input block of the tokens and its output block sit at block
  index t on the group axis; the weights, the table, the scale and the shift are whole arrays at every point.
  So what point t writes back is block t of ONE function of the arrays the region reads (the layer
  normalisation of each token's row), the eight blocks tile the output array, and the array ends at that function.
-/
import proofs.«170738_g9354438771293_cont_9to1_m_169_2_alg».proof.Proof.Gen.KernelIdeal.Frame
import proofs.«170738_g9354438771293_cont_9to1_m_169_2_alg».proof.Proof.KerArray
import proofs.«170738_g9354438771293_cont_9to1_m_169_2_alg».proof.Proof.KerRead
import proofs.«170738_g9354438771293_cont_9to1_m_169_2_alg».proof.Proof.KerPayload
import Idealize.ShloMosaic.Lib.Pipeline.Value

set_option maxRecDepth 16384

noncomputable section

open scoped BigOperators

namespace Cert.KernelIdeal.KerValue

open Cert.KernelIdeal Cert.KernelIdeal.Gen Idealize.ShloMosaic Idealize.ShloMosaic.TcCoe Idealize.SL.Sem
open Idealize.ShloMosaic.ValueIdx Cert.LNSpec
open Idealize.ShloMosaic.Pipeline (Dat)

/-- A block of 64 groups computed from blocks that are restrictions of the arrays: entry (r, l, d) of the block is
    entry (64·T + r, l, d) of the output array. -/
theorem block_eq (A0 : FVec Ideal S512x128x64 .f32) (A1 : FVec Ideal S128x64 .f32) (A2 : FVec Ideal S128x128 .f32)
    (A3 A4 : FVec Ideal S1x128 .f32)
    (x0 : FVec Ideal S64x128x64 .f32) (x1 : FVec Ideal S128x64 .f32) (x2 : FVec Ideal S128x128 .f32)
    (x3 x4 : FVec Ideal S1x128 .f32) (T : ℕ)
    (h0 : ∀ (r : Fin 64) (l : Fin 128) (p : Fin 64) (g : Fin 512), g.val = T * 64 + r.val → x0 (ix3 r l p) = A0 (ix3 g l p))
    (h1 : x1 = A1) (h2 : x2 = A2) (h3 : x3 = A3) (h4 : x4 = A4)
    (j : S64x128x128.Idx) (i : S512x128x128.Idx)
    (hi0 : (i 0).val = T * 64 + (j 0).val) (hi1 : (i 1).val = (j 1).val) (hi2 : (i 2).val = (j 2).val) :
    normalisedBlock (rows x0 x1 x2) x3 x4 j = kerArray A0 A1 A2 A3 A4 i := by
  subst h1 h2 h3 h4
  obtain ⟨r, l, d, rfl⟩ : ∃ (r : Fin 64) (l : Fin 128) (d : Fin 128), j = ix3 r l d := ⟨j 0, j 1, j 2, eq_ix3 j⟩
  obtain ⟨g, l', d', rfl⟩ : ∃ (g : Fin 512) (l' : Fin 128) (d' : Fin 128), i = ix3 g l' d' := ⟨i 0, i 1, i 2, eq_ix3 i⟩
  have hg : g.val = T * 64 + r.val := hi0
  obtain rfl : l' = l := Fin.ext hi1
  obtain rfl : d' = d := Fin.ext hi2
  have hq : r.val * 128 + l'.val < 8192 := by have := r.isLt; have := l'.isLt; omega
  rw [normalisedBlock_apply _ _ _ r l' d' ⟨r.val * 128 + l'.val, hq⟩ rfl, kerArray_apply]
  refine congrArg (fun y => lnRsqrt y _ _ d') (funext fun d'' => ?_)
  rw [rows_apply _ _ _ r l' d'' ⟨r.val * 128 + l'.val, hq⟩ rfl]
  exact congrArg (· + x2 (ix2 l' d'')) (Finset.sum_congr rfl fun p _ => by rw [h0 r l' p g hg])

variable (m : (ℓ : Loc nD τ sig) → Buf (Elt Ideal) ℓ) (ρ : Dev nD → PrngReg)

/-- The output array as the region's arrays determine it. -/
abbrev regionOut (c : Dev nD) : S512x128x128.Idx → EReal :=
  kerArray (V m c main_v0) (V m c main_arg2) (V m c main_v3) (V m c main_v4) (V m c main_v5)

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps over the grid: the token block and the output block move together along the group
    axis and stay at 0 elsewhere; the other four windows never move. -/
theorem index_facts : ∀ t : Fin cfg0.N,
    win0_0.index t (0 : Fin 3) = win0_5.index t (0 : Fin 3) ∧ win0_0.index t (1 : Fin 3) = 0 ∧ win0_0.index t (2 : Fin 3) = 0
    ∧ win0_5.index t (1 : Fin 3) = 0 ∧ win0_5.index t (2 : Fin 3) = 0 ∧ win0_5.index t (0 : Fin 3) ≤ 7
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every block index on the group axis is some point's. -/
theorem index_onto : ∀ q0 : Fin 8, ∃ t : Fin cfg0.N, win0_5.index t = ![q0.val, 0, 0] :=
  (by decide +kernel : ∀ q0 : Fin 8, ∃ t : Fin grid0.N, win0_5.index t = ![q0.val, 0, 0])

/-- What point t writes back is block t of the region's output function. -/
theorem flushed_eq (c : Dev nD) (t : Fin cfg0.N) :
    (dats m 0 c).flushed 5 t = ((cfg0.win 5).blk t).view.read (Elt Ideal) (regionOut m c) := by
  show (cfg0.win 5).cut (grid0.coords t) ((dats m 0 c).after 5 t) = _
  rw [after0_5]
  unfold out0_5
  rw [View.canon_unit_zero zero3]
  simp only [View.ld_unit_zero (S := S64x128x64) zero3, View.ld_unit_zero (S := S128x64) zero2,
    View.ld_unit_zero (S := S128x128) zero2, View.ld_unit_zero (S := S1x128) zero2]
  rw [pay_eq_stages]
  obtain ⟨e0, e1, e2, e3, e4, e5, f10, f11, f20, f21, f30, f31, f40, f41⟩ := index_facts t
  funext j
  show normalisedBlock (rows (iblk m c 0 t) (iblk m c 1 t) (iblk m c 2 t)) (iblk m c 3 t) (iblk m c 4 t) j
    = kerArray (V m c main_v0) (V m c main_arg2) (V m c main_v3) (V m c main_v4) (V m c main_v5)
        (((cfg0.win 5).blk t).view.emb j)
  refine block_eq (V m c main_v0) (V m c main_arg2) (V m c main_v3) (V m c main_v4) (V m c main_v5)
    (iblk m c 0 t) (iblk m c 1 t) (iblk m c 2 t) (iblk m c 3 t) (iblk m c 4 t) (win0_5.index t (0 : Fin 3))
    ?_ ?_ ?_ ?_ ?_ j (((cfg0.win 5).blk t).view.emb j) ?_ ?_ ?_
  · intro r l p g hg
    show V m c main_v0 (((cfg0.win 0).blk t).view.emb (ix3 r l p)) = V m c main_v0 (ix3 g l p)
    refine congrArg (V m c main_v0) (funext fun a => Fin.ext ?_)
    match a with
    | ⟨0, _⟩ => show win0_0.index t (0 : Fin 3) * 64 + 1 * r.val = g.val; omega
    | ⟨1, _⟩ => show win0_0.index t (1 : Fin 3) * 128 + 1 * l.val = l.val; omega
    | ⟨2, _⟩ => show win0_0.index t (2 : Fin 3) * 64 + 1 * p.val = p.val; omega
  · funext y
    show V m c main_arg2 (((cfg0.win 1).blk t).view.emb y) = V m c main_arg2 y
    refine congrArg (V m c main_arg2) (funext fun a => Fin.ext ?_)
    match a with
    | ⟨0, _⟩ => show win0_1.index t (0 : Fin 2) * 128 + 1 * (y 0).val = (y 0).val; omega
    | ⟨1, _⟩ => show win0_1.index t (1 : Fin 2) * 64 + 1 * (y 1).val = (y 1).val; omega
  · funext y
    show V m c main_v3 (((cfg0.win 2).blk t).view.emb y) = V m c main_v3 y
    refine congrArg (V m c main_v3) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V m c main_v4 (((cfg0.win 3).blk t).view.emb y) = V m c main_v4 y
    refine congrArg (V m c main_v4) (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  · funext y
    show V m c main_v5 (((cfg0.win 4).blk t).view.emb y) = V m c main_v5 y
    refine congrArg (V m c main_v5) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  · show win0_5.index t (0 : Fin 3) * 64 + 1 * (j 0).val = win0_5.index t (0 : Fin 3) * 64 + (j 0).val; omega
  · show win0_5.index t (1 : Fin 3) * 128 + 1 * (j 1).val = (j 1).val; omega
  · show win0_5.index t (2 : Fin 3) * 128 + 1 * (j 2).val = (j 2).val; omega

/-- An index of the output array is in point t's block iff each coordinate is in the block's range. -/
theorem mem_block (t : Fin cfg0.N) (i : S512x128x128.Idx) :
    i ∈ ((cfg0.win 5).blk t).view.set ↔ ∀ a : Fin 3, win0_5.index t a * S64x128x128.size a ≤ (i a).val
      ∧ (i a).val < win0_5.index t a * S64x128x128.size a + S64x128x128.size a := by
  show i ∈ ((View.whole main_v6).slice (win0_5.rect t)).set ↔ _
  rw [View.set_slice_whole, Rect.mem_set_unit]
  exact Iff.rfl

/-- The eight blocks cover the output array: group g lies in block g / 64. -/
theorem covered (i : S512x128x128.Idx) :
    ∃ t : Fin cfg0.N, (cfg0.win 5).flush t = true ∧ i ∈ ((cfg0.win 5).blk t).view.set := by
  have hi0 : (i 0).val < 512 := (i 0).isLt
  have hi1 : (i 1).val < 128 := (i 1).isLt
  have hi2 : (i 2).val < 128 := (i 2).isLt
  obtain ⟨t, ht⟩ := index_onto ⟨(i 0).val / 64, by omega⟩
  have q0 : win0_5.index t (0 : Fin 3) = (i 0).val / 64 := congrFun ht 0
  have q1 : win0_5.index t (1 : Fin 3) = 0 := congrFun ht 1
  have q2 : win0_5.index t (2 : Fin 3) = 0 := congrFun ht 2
  refine ⟨t, flush0_5 t, ?_⟩
  rw [mem_block]
  intro a
  match a with
  | ⟨0, _⟩ => show win0_5.index t (0 : Fin 3) * 64 ≤ (i 0).val ∧ (i 0).val < win0_5.index t (0 : Fin 3) * 64 + 64; omega
  | ⟨1, _⟩ => show win0_5.index t (1 : Fin 3) * 128 ≤ (i 1).val ∧ (i 1).val < win0_5.index t (1 : Fin 3) * 128 + 128; omega
  | ⟨2, _⟩ => show win0_5.index t (2 : Fin 3) * 128 ≤ (i 2).val ∧ (i 2).val < win0_5.index t (2 : Fin 3) * 128 + 128; omega

/-- The output array after the region is the region's output function. -/
theorem final (c : Dev nD) : (dats m 0 c).arrAt 5 cfg0.N = regionOut m c :=
  (dats m 0 c).arrAt_eq_of_cover 5 (regionOut m c) (fun t _ => flushed_eq m c t) covered

end Cert.KernelIdeal.KerValue

end
-- ==== Proof.KerHost.lean ====
/-
  The arrays the region's windows read that a host operation wrote before the region, as functions of the launch
  contents: the input with its two leading axes merged, the looked-up table plus the broadcast bias, and the scale
  and shift vectors each given a leading unit axis.
-/
import proofs.«170738_g9354438771293_cont_9to1_m_169_2_alg».proof.Proof.Gen.KernelIdeal.Frame
import Idealize.ShloMosaic.PureOps.Ideal

noncomputable section

namespace Cert.KernelIdeal.KerValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The first window's array is the input reshaped: [16, 32, 128, 64] read as [512, 128, 64]. -/
theorem V_main_v0 (c : Dev nD) : (V m c main_v0 : S512x128x64.Idx → EReal) = shapeCast S512x128x64 (m ((c : Thread nD τ).loc main_arg0)) shapeCasts_S16x32x128x64_S512x128x64 := by
  show StableHlo.after hostOps0 (fun b => m (c, b)) (Proc.devRef .tc main_v0) = _
  after_results
  rfl

/-- The third window's array is the table plus the bias broadcast along the rows. -/
theorem V_main_v3 (c : Dev nD) : (V m c main_v3 : S128x128.Idx → EReal) = addf (F := Ideal) (φ := .f32) (m ((c : Thread nD τ).loc main_arg1)) (broadcastInDim S128x128 ![0, 1] bcast_S1x128_S128x128_0_1 (broadcastInDim S1x128 ![1] bcast_S128_S1x128_1 (m ((c : Thread nD τ).loc main_arg3)))) := by
  show StableHlo.after hostOps0 (fun b => m (c, b)) (Proc.devRef .tc main_v3) = _
  after_results

/-- The scale vector with a leading unit axis. -/
theorem V_main_v4 (c : Dev nD) : (V m c main_v4 : S1x128.Idx → EReal) = shapeCast S1x128 (m ((c : Thread nD τ).loc main_arg4)) shapeCasts_S128_S1x128 := by
  show StableHlo.after hostOps0 (fun b => m (c, b)) (Proc.devRef .tc main_v4) = _
  after_results
  rfl

/-- The shift vector with a leading unit axis. -/
theorem V_main_v5 (c : Dev nD) : (V m c main_v5 : S1x128.Idx → EReal) = shapeCast S1x128 (m ((c : Thread nD τ).loc main_arg5)) shapeCasts_S128_S1x128 := by
  show StableHlo.after hostOps0 (fun b => m (c, b)) (Proc.devRef .tc main_v5) = _
  after_results
  rfl

end Cert.KernelIdeal.KerValue

end
-- ==== Proof.KerReshape.lean ====
/-
  The kernel's output array under the host's reshapes: the tokens [16, 32, 128, ·] are viewed as 512 = 16 · 32 groups
  of 128, group n · 32 + c being (n, c); the bias is added to the table beforehand; scale and shift are one-row
  arrays.  Undoing the views, entry (n, c, l, d) of the result is the layer normalisation, in the
  reciprocal-square-root reading, of the row  d' ↦ Σ_p x[n,c,l,p] · W[d',p] + (emb[l,d'] + b[d']).
-/
import proofs.«170738_g9354438771293_cont_9to1_m_169_2_alg».proof.Proof.KerArray
import proofs.«170738_g9354438771293_cont_9to1_m_169_2_alg».proof.Proof.LNSpec
import proofs.«170738_g9354438771293_cont_9to1_m_169_2_alg».proof.Proof.LibRowBlocks
import Idealize.ShloMosaic.Lib.ValueIdx
import Idealize.ShloMosaic.Lib.ValueLayout
import Idealize.ShloMosaic.Lib.Pipeline.Value

noncomputable section

open scoped BigOperators

namespace Cert.KernelIdeal.KerValue

open Cert.KernelIdeal Cert.KernelIdeal.Gen Idealize.ShloMosaic Idealize.ShloMosaic.ValueIdx Cert.LNSpec

/-- The tokens viewed as 512 groups: group n · 32 + c, token l, coordinate p is x[n, c, l, p]. -/
theorem tokens_apply (x : FVec Ideal S16x32x128x64 .f32) (n : Fin 16) (c : Fin 32) (l : Fin 128) (p : Fin 64)
    (q : Fin 512) (hq : q.val = n.val * 32 + c.val) :
    shapeCast S512x128x64 x shapeCasts_S16x32x128x64_S512x128x64 (ix3 q l p) = x (ix4 n c l p) :=
  shapeCast_apply x _ _ _ (by
    rw [Shape.rowMajor_val_three, Shape.rowMajor_val_four]
    show ((n.val * 32 + c.val) * 128 + l.val) * 64 + p.val = (q.val * 128 + l.val) * 64 + p.val
    rw [hq])

/-- The table with the bias folded in, at (l, d'): emb[l, d'] + b[d']. -/
theorem table_apply (emb : FVec Ideal S128x128 .f32) (b : FVec Ideal S128 .f32) (l d' : Fin 128) :
    addf emb (broadcastInDim S128x128 ![0, 1] bcast_S1x128_S128x128_0_1 (broadcastInDim S1x128 ![1] bcast_S128_S1x128_1 b))
      (ix2 l d') = emb (ix2 l d') + b (ix1 d') := by
  rw [addf_apply,
    broadcastInDim_apply _ _ _ _ (ix2 (0 : Fin 1) d') (fun a => by
      match a with
      | ⟨0, _⟩ => rfl
      | ⟨1, _⟩ => rfl),
    broadcastInDim_apply _ _ _ _ (ix1 d') (fun a => by
      match a with
      | ⟨0, _⟩ => rfl)]

/-- The kernel's output array, its operands the host's views of the six arguments, viewed back as [16, 32, 128, 128],
    is the layer normalisation in the reciprocal-square-root reading with the bias folded into the table. -/
theorem kerArray_reshape (x : FVec Ideal S16x32x128x64 .f32) (emb : FVec Ideal S128x128 .f32) (W : FVec Ideal S128x64 .f32)
    (b g bt : FVec Ideal S128 .f32) :
    shapeCast S16x32x128x128
      (kerArray (shapeCast S512x128x64 x shapeCasts_S16x32x128x64_S512x128x64) W
        (addf emb (broadcastInDim S128x128 ![0, 1] bcast_S1x128_S128x128_0_1 (broadcastInDim S1x128 ![1] bcast_S128_S1x128_1 b)))
        (shapeCast S1x128 g shapeCasts_S128_S1x128) (shapeCast S1x128 bt shapeCasts_S128_S1x128))
      shapeCasts_S512x128x128_S16x32x128x128
    = Cert.LNSpec.outRsqrt x emb W b g bt := by
  funext i
  obtain ⟨n, c, l, d, rfl⟩ : ∃ (n : Fin 16) (c : Fin 32) (l : Fin 128) (d : Fin 128), i = ix4 n c l d :=
    ⟨i 0, i 1, i 2, i 3, eq_ix4 i⟩
  have hq : n.val * 32 + c.val < 512 := by omega
  rw [shapeCast_apply _ shapeCasts_S512x128x128_S16x32x128x128 (ix4 n c l d)
    (ix3 (⟨n.val * 32 + c.val, hq⟩ : Fin 512) l d) (by
      rw [Shape.rowMajor_val_three, Shape.rowMajor_val_four]
      rfl), kerArray_apply]
  have hrow : kerRow (shapeCast S512x128x64 x shapeCasts_S16x32x128x64_S512x128x64) W
      (addf emb (broadcastInDim S128x128 ![0, 1] bcast_S1x128_S128x128_0_1 (broadcastInDim S1x128 ![1] bcast_S128_S1x128_1 b)))
      (⟨n.val * 32 + c.val, hq⟩ : Fin 512) l = rowFoldedBias x emb W b n c l := by
    funext d'
    unfold kerRow
    rw [table_apply]
    simp only [tokens_apply x n c l _ (⟨n.val * 32 + c.val, hq⟩ : Fin 512) rfl]
    rfl
  have hg : (fun d' : Fin 128 => shapeCast S1x128 g shapeCasts_S128_S1x128 (ix2 (0 : Fin 1) d')) = fun d' => g (ix1 d') :=
    funext fun d' => shapeCast_a_1a_apply g _ 0 d'
  have hbt : (fun d' : Fin 128 => shapeCast S1x128 bt shapeCasts_S128_S1x128 (ix2 (0 : Fin 1) d')) = fun d' => bt (ix1 d') :=
    funext fun d' => shapeCast_a_1a_apply bt _ 0 d'
  rw [hrow, hg, hbt]
  rfl

end Cert.KernelIdeal.KerValue

end
-- ==== Proof.KerRun.lean ====
/-
  The idealized kernel's run, read: after the run the result holds, at (n, c, l, d), the layer normalisation (in
  the reciprocal-square-root reading) of token (n, c, l)'s row, as a function of the six argument arrays.

  The region's output array [512, 128, 128] ends at one function of the arrays the region reads; those are the
  token array regrouped, the weights, the table plus the bias, and the scale and shift as one-row arrays; the
  host then regroups the output to [16, 32, 128, 128].
-/
import proofs.«170738_g9354438771293_cont_9to1_m_169_2_alg».proof.Proof.KerBlocks
import proofs.«170738_g9354438771293_cont_9to1_m_169_2_alg».proof.Proof.KerHost
import proofs.«170738_g9354438771293_cont_9to1_m_169_2_alg».proof.Proof.KerReshape
import Idealize.ShloMosaic.Lib.StableHlo.Run

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The host line after the region regroups the region's output array. -/
theorem tail_eq (c : Dev nD) :
    Pipeline.afterTail₀ cfgs (dats m) 0 (V0 m) [hostOps1] c main_v7
      = shapeCast S16x32x128x128 ((dats m 0 c).arrAt 5 cfg0.N) shapeCasts_S512x128x128_S16x32x128x128 := by
  unfold Pipeline.afterTail₀
  show StableHlo.after hostOps1 _ (Proc.devRef .tc main_v7) = _
  after_results
  exact congrArg (fun a => shapeCast S16x32x128x128 a shapeCasts_S512x128x128_S16x32x128x128)
    (Pipeline.withArrays_arr spec0 launch0.win.arr_inj c _ _ 5)

/-- The region's output function, regrouped, is the specification's array of the six arguments. -/
theorem regionOut_reshape (c : Dev nD) :
    shapeCast S16x32x128x128 (regionOut m c) shapeCasts_S512x128x128_S16x32x128x128
      = Cert.LNSpec.outRsqrt (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  unfold regionOut
  rw [V_main_v0, V_main_arg2, V_main_v3, V_main_v4, V_main_v5]
  exact kerArray_reshape _ _ _ _ _ _

/-- Every weakly fair execution of the idealized kernel terminates with the result at the specification's
    array of the arguments, and the arguments unchanged. -/
theorem run : θ_run defs (onTc (τ := τ) (main (F := Ideal))) ⟨m, fun _ => 0, ρ⟩ fun r => ∀ c : Dev nD,
      r.2.mem ((c.tc : Thread nD τ).loc main_v7)
        = Cert.LNSpec.outRsqrt (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(((h c).2 main_v7 (Pipeline.mem_restRefs_of main_v7 (by decide) (by decide))).trans (tail_eq m c)).trans
        ((congrArg (fun a => shapeCast S16x32x128x128 a shapeCasts_S512x128x128_S16x32x128x128) (final m c)).trans
          (regionOut_reshape m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KerValue

end
-- ==== Proof.RefTerm.lean ====
/-
  The reference program's result as ONE pure term of its six argument arrays, cut into named stages:
  the positions 0..127 and their wrap-around as the table lookup computes them, the looked-up table,
  the row before normalisation (projection + bias + looked-up embedding), and the layer normalisation
  (mean, centred row, variance, quotient by the square root, scale and shift).
-/
import proofs.«170738_g9354438771293_cont_9to1_m_169_2_alg».proof.Proof.Gen.ReferenceIdeal

noncomputable section

namespace Cert.ReferenceIdeal.RefValue

open Cert.ReferenceIdeal Cert.ReferenceIdeal.Gen Idealize.ShloMosaic

variable {F : FTy → Type} [FloatOps F]

/-- The positions 0, 1, …, 127 laid out as a [1, 1, 128] array. -/
def pos : IVec S1x1x128 32 := broadcastInDim S1x1x128 ![2] bcast_S128_S1x1x128_2 (iotaInDim S128 32 0)

/-- The lookup's index normalisation: a negative position is shifted up by the table's 128 rows. -/
def wrapped : IVec S1x1x128 32 :=
  select (cmpi .slt pos (broadcastInDim S1x1x128 ![] bcast_S_S1x1x128 (constantI S_ 32 0#32)))
    (addi pos (broadcastInDim S1x1x128 ![] bcast_S_S1x1x128 (constantI S_ 32 128#32))) pos

/-- The start indices of the gather: the normalised positions with a trailing unit axis. -/
def startIdx : IVec S1x1x128x1 32 :=
  broadcastInDim S1x1x128x1 ![0, 1, 2] bcast_S1x1x128_S1x1x128x1_0_1_2 wrapped

/-- Per position, whether its start index lies in 0..127 (the lookup fills rows outside with a junk value). -/
def inRange : IVec S1x1x128 1 :=
  Host.reduce IntOp.andi
    (andi (cmpi .sge startIdx (broadcastInDim S1x1x128x1 ![] bcast_S_S1x1x128x1 (constantI S_ 32 0#32)))
      (cmpi .sle startIdx (broadcastInDim S1x1x128x1 ![0, 1, 2, 3] bcast_S1x1x1x1_S1x1x128x1_0_1_2_3
        (broadcastInDim S1x1x1x1 ![3] bcast_S1_S1x1x1x1_3 (constantI S1 32 127#32)))))
    (constantI S_ 1 1#1) reducesTo_S1x1x128x1_S1x1x128_d3 h_S_

/-- The looked-up table: row l of the result is row (position l) of emb where in range, else the fill value. -/
def taken (emb : FVec F S128x128 .f32) : FVec F S1x1x128x128 .f32 :=
  select (broadcastInDim S1x1x128x128 ![0, 1, 2] bcast_S1x1x128_S1x1x128x128_0_1_2 inRange)
    (Host.gather gather_S128x128_S1x1x128x1_S1x1x128x128_3_0_n_n_0_3_1128 emb startIdx)
    (broadcastInDim S1x1x128x128 ![] bcast_S_S1x1x128x128 (constant S_ .f32 0x7FC00000#32))

/-- The row before normalisation: (x·Wᵀ + b) + looked-up embedding. -/
def pre (x : FVec F S16x32x128x64 .f32) (emb : FVec F S128x128 .f32) (W : FVec F S128x64 .f32) (b : FVec F S128 .f32) :
    FVec F S16x32x128x128 .f32 :=
  addf
    (addf (Host.dotGeneral dot_S16x32x128x64_S128x64_S16x32x128x128_3_1_012_0_n_n none x W)
      (broadcastInDim S16x32x128x128 ![0, 1, 2, 3] bcast_S1x1x1x128_S16x32x128x128_0_1_2_3
        (broadcastInDim S1x1x1x128 ![3] bcast_S128_S1x1x1x128_3 b)))
    (broadcastInDim S16x32x128x128 ![0, 1, 2, 3] bcast_S1x1x128x128_S16x32x128x128_0_1_2_3 (taken emb))

/-- The mean over the last axis, kept as a trailing unit axis. -/
def mean (y : FVec F S16x32x128x128 .f32) : FVec F S16x32x128x1 .f32 :=
  Host.divf
    (broadcastInDim S16x32x128x1 ![0, 1, 2] bcast_S16x32x128_S16x32x128x1_0_1_2
      (Host.reduceAdd y (constant S_ .f32 0x00000000#32) reducesTo_S16x32x128x128_S16x32x128_d3 h_S_))
    (broadcastInDim S16x32x128x1 ![] bcast_S_S16x32x128x1 (constant S_ .f32 0x43000000#32))

/-- The row minus its mean. -/
def centred (y : FVec F S16x32x128x128 .f32) : FVec F S16x32x128x128 .f32 :=
  subf y (broadcastInDim S16x32x128x128 ![0, 1, 2, 3] bcast_S16x32x128x1_S16x32x128x128_0_1_2_3 (mean y))

/-- The mean of the squared deviations, kept as a trailing unit axis. -/
def variance (y : FVec F S16x32x128x128 .f32) : FVec F S16x32x128x1 .f32 :=
  Host.divf
    (broadcastInDim S16x32x128x1 ![0, 1, 2] bcast_S16x32x128_S16x32x128x1_0_1_2
      (Host.reduceAdd (mulf (centred y) (centred y)) (constant S_ .f32 0x00000000#32)
        reducesTo_S16x32x128x128_S16x32x128_d3 h_S_))
    (broadcastInDim S16x32x128x1 ![] bcast_S_S16x32x128x1 (constant S_ .f32 0x43000000#32))

/-- The normalised, scaled and shifted row: centred / sqrt(variance + ε) · γ + β. -/
def normalised (y : FVec F S16x32x128x128 .f32) (g bt : FVec F S128 .f32) : FVec F S16x32x128x128 .f32 :=
  addf
    (mulf
      (Host.divf (centred y)
        (broadcastInDim S16x32x128x128 ![0, 1, 2, 3] bcast_S16x32x128x1_S16x32x128x128_0_1_2_3
          (Host.sqrt (addf (variance y)
            (broadcastInDim S16x32x128x1 ![] bcast_S_S16x32x128x1 (constant S_ .f32 0x3727C5AC#32))))))
      (broadcastInDim S16x32x128x128 ![0, 1, 2, 3] bcast_S1x1x1x128_S16x32x128x128_0_1_2_3
        (broadcastInDim S1x1x1x128 ![3] bcast_S128_S1x1x1x128_3 g)))
    (broadcastInDim S16x32x128x128 ![0, 1, 2, 3] bcast_S1x1x1x128_S16x32x128x128_0_1_2_3
      (broadcastInDim S1x1x1x128 ![3] bcast_S128_S1x1x1x128_3 bt))

/-- The reference's result as a function of its six arguments. -/
def refTerm (x : FVec F S16x32x128x64 .f32) (emb : FVec F S128x128 .f32) (W : FVec F S128x64 .f32)
    (b g bt : FVec F S128 .f32) : FVec F S16x32x128x128 .f32 :=
  normalised (pre x emb W b) g bt

end Cert.ReferenceIdeal.RefValue

end
-- ==== Proof.RefRun.lean ====
/-
  The reference program's run: its @main, with the table lookup's two helper functions unfolded at
  their calls, is one straight line of sixty array operations; every weakly fair execution of it
  terminates, the result buffer then holds the composed pure term of the six argument arrays (the
  named stages: lookup, row before normalisation, layer normalisation), and the argument buffers are unchanged.
-/
import proofs.«170738_g9354438771293_cont_9to1_m_169_2_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's sixty operations in order, the two calls unfolded: the positions and their layout (2), the
    lookup (23: the index normalisation with its select, the range test, the gather, the fill), then
    the projection, the two sums, and the layer normalisation (35). -/
abbrev ops : List (HloOp τ sig (Elt F)) :=
  [ StableHlo.nullary main_v0 (iotaInDim S128 32 0),
    StableHlo.unary main_v0 main_v1 (broadcastInDim S1x1x128 ![2] bcast_S128_S1x1x128_2 : (⟨S128, .i32⟩ : BufTy).Contents (Elt F) → (⟨S1x1x128, .i32⟩ : BufTy).Contents (Elt F)),
    StableHlo.TRef.nullary main_call0.c (constantI S_ 32 0#32),
    StableHlo.TRef.unary main_call0.c main_call0.v0 (broadcastInDim S1x1x128 ![] bcast_S_S1x1x128),
    StableHlo.TRef.binary (TRef.of main_v1 : TRef sig ⟨S1x1x128, .i32⟩) main_call0.v0 main_call0.v1 (cmpi .slt),
    StableHlo.TRef.nullary main_call0.c_0 (constantI S_ 32 128#32),
    StableHlo.TRef.unary main_call0.c_0 main_call0.v2 (broadcastInDim S1x1x128 ![] bcast_S_S1x1x128),
    StableHlo.TRef.binary (TRef.of main_v1 : TRef sig ⟨S1x1x128, .i32⟩) main_call0.v2 main_call0.v3 addi,
    StableHlo.TRef.ternary main_call0.v1 main_call0.v3 (TRef.of main_v1 : TRef sig ⟨S1x1x128, .i32⟩) main_call0.call0.v0 select,
    StableHlo.TRef.unary main_call0.call0.v0 main_call0.v5 (broadcastInDim S1x1x128x1 ![0, 1, 2] bcast_S1x1x128_S1x1x128x1_0_1_2),
    StableHlo.TRef.nullary main_call0.c_1 (constantI S1 32 127#32),
    StableHlo.TRef.nullary main_call0.c_2 (constantI S_ 32 0#32),
    StableHlo.TRef.unary main_call0.c_2 main_call0.v6 (broadcastInDim S1x1x128x1 ![] bcast_S_S1x1x128x1),
    StableHlo.TRef.binary main_call0.v5 main_call0.v6 main_call0.v7 (cmpi .sge),
    StableHlo.TRef.unary main_call0.c_1 main_call0.v8 (broadcastInDim S1x1x1x1 ![3] bcast_S1_S1x1x1x1_3),
    StableHlo.TRef.unary main_call0.v8 main_call0.v9 (broadcastInDim S1x1x128x1 ![0, 1, 2, 3] bcast_S1x1x1x1_S1x1x128x1_0_1_2_3),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1x1x128x1_S1x1x128_d3 h_S_),
    StableHlo.TRef.binary (TRef.of main_arg1 : TRef sig ⟨S128x128, .f32⟩) main_call0.v5 main_call0.v13 (fun x i => Host.gather gather_S128x128_S1x1x128x1_S1x1x128x128_3_0_n_n_0_3_1128 x i),
    StableHlo.TRef.unary main_call0.v12 main_call0.v14 (broadcastInDim S1x1x128x128 ![0, 1, 2] bcast_S1x1x128_S1x1x128x128_0_1_2),
    StableHlo.TRef.nullary main_call0.cst (constant S_ .f32 0x7FC00000#32),
    StableHlo.TRef.unary main_call0.cst main_call0.v15 (broadcastInDim S1x1x128x128 ![] bcast_S_S1x1x128x128),
    StableHlo.TRef.ternary main_call0.v14 main_call0.v13 main_call0.v15 main_call0.v16 select,
    StableHlo.binary main_arg0 main_arg2 main_v3 ((fun l r => Host.dotGeneral dot_S16x32x128x64_S128x64_S16x32x128x128_3_1_012_0_n_n none l r) : (⟨S16x32x128x64, .f32⟩ : BufTy).Contents (Elt F) → (⟨S128x64, .f32⟩ : BufTy).Contents (Elt F) → (⟨S16x32x128x128, .f32⟩ : BufTy).Contents (Elt F)),
    StableHlo.unary main_arg3 main_v4 (broadcastInDim S1x1x1x128 ![3] bcast_S128_S1x1x1x128_3 : (⟨S128, .f32⟩ : BufTy).Contents (Elt F) → (⟨S1x1x1x128, .f32⟩ : BufTy).Contents (Elt F)),
    StableHlo.unary main_v4 main_v5 (broadcastInDim S16x32x128x128 ![0, 1, 2, 3] bcast_S1x1x1x128_S16x32x128x128_0_1_2_3 : (⟨S1x1x1x128, .f32⟩ : BufTy).Contents (Elt F) → (⟨S16x32x128x128, .f32⟩ : BufTy).Contents (Elt F)),
    StableHlo.binary main_v3 main_v5 main_v6 (addf : (⟨S16x32x128x128, .f32⟩ : BufTy).Contents (Elt F) → (⟨S16x32x128x128, .f32⟩ : BufTy).Contents (Elt F) → (⟨S16x32x128x128, .f32⟩ : BufTy).Contents (Elt F)),
    StableHlo.unary main_v2 main_v7 (broadcastInDim S16x32x128x128 ![0, 1, 2, 3] bcast_S1x1x128x128_S16x32x128x128_0_1_2_3 : (⟨S1x1x128x128, .f32⟩ : BufTy).Contents (Elt F) → (⟨S16x32x128x128, .f32⟩ : BufTy).Contents (Elt F)),
    StableHlo.binary main_v6 main_v7 main_v8 (addf : (⟨S16x32x128x128, .f32⟩ : BufTy).Contents (Elt F) → (⟨S16x32x128x128, .f32⟩ : BufTy).Contents (Elt F) → (⟨S16x32x128x128, .f32⟩ : BufTy).Contents (Elt F)),
    StableHlo.nullary main_cst (constant S_ .f32 0x00000000#32),
    StableHlo.binary main_v8 main_cst main_v9 ((fun x v => Host.reduceAdd x v reducesTo_S16x32x128x128_S16x32x128_d3 h_S_) : (⟨S16x32x128x128, .f32⟩ : BufTy).Contents (Elt F) → (⟨S_, .f32⟩ : BufTy).Contents (Elt F) → (⟨S16x32x128, .f32⟩ : BufTy).Contents (Elt F)),
    StableHlo.unary main_v9 main_v10 (broadcastInDim S16x32x128x1 ![0, 1, 2] bcast_S16x32x128_S16x32x128x1_0_1_2 : (⟨S16x32x128, .f32⟩ : BufTy).Contents (Elt F) → (⟨S16x32x128x1, .f32⟩ : BufTy).Contents (Elt F)),
    StableHlo.nullary main_cst_0 (constant S_ .f32 0x43000000#32),
    StableHlo.unary main_cst_0 main_v11 (broadcastInDim S16x32x128x1 ![] bcast_S_S16x32x128x1 : (⟨S_, .f32⟩ : BufTy).Contents (Elt F) → (⟨S16x32x128x1, .f32⟩ : BufTy).Contents (Elt F)),
    StableHlo.binary main_v10 main_v11 main_v12 (Host.divf : (⟨S16x32x128x1, .f32⟩ : BufTy).Contents (Elt F) → (⟨S16x32x128x1, .f32⟩ : BufTy).Contents (Elt F) → (⟨S16x32x128x1, .f32⟩ : BufTy).Contents (Elt F)),
    StableHlo.unary main_v12 main_v13 (broadcastInDim S16x32x128x128 ![0, 1, 2, 3] bcast_S16x32x128x1_S16x32x128x128_0_1_2_3 : (⟨S16x32x128x1, .f32⟩ : BufTy).Contents (Elt F) → (⟨S16x32x128x128, .f32⟩ : BufTy).Contents (Elt F)),
    StableHlo.binary main_v8 main_v13 main_v14 (subf : (⟨S16x32x128x128, .f32⟩ : BufTy).Contents (Elt F) → (⟨S16x32x128x128, .f32⟩ : BufTy).Contents (Elt F) → (⟨S16x32x128x128, .f32⟩ : BufTy).Contents (Elt F)),
    StableHlo.binary main_v14 main_v14 main_v15 (mulf : (⟨S16x32x128x128, .f32⟩ : BufTy).Contents (Elt F) → (⟨S16x32x128x128, .f32⟩ : BufTy).Contents (Elt F) → (⟨S16x32x128x128, .f32⟩ : BufTy).Contents (Elt F)),
    StableHlo.nullary main_cst_1 (constant S_ .f32 0x00000000#32),
    StableHlo.binary main_v15 main_cst_1 main_v16 ((fun x v => Host.reduceAdd x v reducesTo_S16x32x128x128_S16x32x128_d3 h_S_) : (⟨S16x32x128x128, .f32⟩ : BufTy).Contents (Elt F) → (⟨S_, .f32⟩ : BufTy).Contents (Elt F) → (⟨S16x32x128, .f32⟩ : BufTy).Contents (Elt F)),
    StableHlo.unary main_v16 main_v17 (broadcastInDim S16x32x128x1 ![0, 1, 2] bcast_S16x32x128_S16x32x128x1_0_1_2 : (⟨S16x32x128, .f32⟩ : BufTy).Contents (Elt F) → (⟨S16x32x128x1, .f32⟩ : BufTy).Contents (Elt F)),
    StableHlo.nullary main_cst_2 (constant S_ .f32 0x43000000#32),
    StableHlo.unary main_cst_2 main_v18 (broadcastInDim S16x32x128x1 ![] bcast_S_S16x32x128x1 : (⟨S_, .f32⟩ : BufTy).Contents (Elt F) → (⟨S16x32x128x1, .f32⟩ : BufTy).Contents (Elt F)),
    StableHlo.binary main_v17 main_v18 main_v19 (Host.divf : (⟨S16x32x128x1, .f32⟩ : BufTy).Contents (Elt F) → (⟨S16x32x128x1, .f32⟩ : BufTy).Contents (Elt F) → (⟨S16x32x128x1, .f32⟩ : BufTy).Contents (Elt F)),
    StableHlo.unary main_v12 main_v20 (broadcastInDim S16x32x128x128 ![0, 1, 2, 3] bcast_S16x32x128x1_S16x32x128x128_0_1_2_3 : (⟨S16x32x128x1, .f32⟩ : BufTy).Contents (Elt F) → (⟨S16x32x128x128, .f32⟩ : BufTy).Contents (Elt F)),
    StableHlo.binary main_v8 main_v20 main_v21 (subf : (⟨S16x32x128x128, .f32⟩ : BufTy).Contents (Elt F) → (⟨S16x32x128x128, .f32⟩ : BufTy).Contents (Elt F) → (⟨S16x32x128x128, .f32⟩ : BufTy).Contents (Elt F)),
    StableHlo.nullary main_cst_3 (constant S_ .f32 0x3727C5AC#32),
    StableHlo.unary main_cst_3 main_v22 (broadcastInDim S16x32x128x1 ![] bcast_S_S16x32x128x1 : (⟨S_, .f32⟩ : BufTy).Contents (Elt F) → (⟨S16x32x128x1, .f32⟩ : BufTy).Contents (Elt F)),
    StableHlo.binary main_v19 main_v22 main_v23 (addf : (⟨S16x32x128x1, .f32⟩ : BufTy).Contents (Elt F) → (⟨S16x32x128x1, .f32⟩ : BufTy).Contents (Elt F) → (⟨S16x32x128x1, .f32⟩ : BufTy).Contents (Elt F)),
    StableHlo.unary main_v23 main_v24 (Host.sqrt : (⟨S16x32x128x1, .f32⟩ : BufTy).Contents (Elt F) → (⟨S16x32x128x1, .f32⟩ : BufTy).Contents (Elt F)),
    StableHlo.unary main_v24 main_v25 (broadcastInDim S16x32x128x128 ![0, 1, 2, 3] bcast_S16x32x128x1_S16x32x128x128_0_1_2_3 : (⟨S16x32x128x1, .f32⟩ : BufTy).Contents (Elt F) → (⟨S16x32x128x128, .f32⟩ : BufTy).Contents (Elt F)),
    StableHlo.binary main_v21 main_v25 main_v26 (Host.divf : (⟨S16x32x128x128, .f32⟩ : BufTy).Contents (Elt F) → (⟨S16x32x128x128, .f32⟩ : BufTy).Contents (Elt F) → (⟨S16x32x128x128, .f32⟩ : BufTy).Contents (Elt F)),
    StableHlo.unary main_arg4 main_v27 (broadcastInDim S1x1x1x128 ![3] bcast_S128_S1x1x1x128_3 : (⟨S128, .f32⟩ : BufTy).Contents (Elt F) → (⟨S1x1x1x128, .f32⟩ : BufTy).Contents (Elt F)),
    StableHlo.unary main_v27 main_v28 (broadcastInDim S16x32x128x128 ![0, 1, 2, 3] bcast_S1x1x1x128_S16x32x128x128_0_1_2_3 : (⟨S1x1x1x128, .f32⟩ : BufTy).Contents (Elt F) → (⟨S16x32x128x128, .f32⟩ : BufTy).Contents (Elt F)),
    StableHlo.binary main_v26 main_v28 main_v29 (mulf : (⟨S16x32x128x128, .f32⟩ : BufTy).Contents (Elt F) → (⟨S16x32x128x128, .f32⟩ : BufTy).Contents (Elt F) → (⟨S16x32x128x128, .f32⟩ : BufTy).Contents (Elt F)),
    StableHlo.unary main_arg5 main_v30 (broadcastInDim S1x1x1x128 ![3] bcast_S128_S1x1x1x128_3 : (⟨S128, .f32⟩ : BufTy).Contents (Elt F) → (⟨S1x1x1x128, .f32⟩ : BufTy).Contents (Elt F)),
    StableHlo.unary main_v30 main_v31 (broadcastInDim S16x32x128x128 ![0, 1, 2, 3] bcast_S1x1x1x128_S16x32x128x128_0_1_2_3 : (⟨S1x1x1x128, .f32⟩ : BufTy).Contents (Elt F) → (⟨S16x32x128x128, .f32⟩ : BufTy).Contents (Elt F)),
    StableHlo.binary main_v29 main_v31 main_v32 (addf : (⟨S16x32x128x128, .f32⟩ : BufTy).Contents (Elt F) → (⟨S16x32x128x128, .f32⟩ : BufTy).Contents (Elt F) → (⟨S16x32x128x128, .f32⟩ : BufTy).Contents (Elt F)) ]

set_option maxRecDepth 4096 in
/-- @main is that straight line: the helper functions' bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., binary_bufs_sub .., unary_bufs_sub .., unary_bufs_sub .., binary_bufs_sub .., unary_bufs_sub ..,
    binary_bufs_sub .., nullary_bufs_sub .., binary_bufs_sub .., unary_bufs_sub .., nullary_bufs_sub .., unary_bufs_sub ..,
    binary_bufs_sub .., unary_bufs_sub .., binary_bufs_sub .., binary_bufs_sub .., nullary_bufs_sub .., binary_bufs_sub ..,
    unary_bufs_sub .., nullary_bufs_sub .., unary_bufs_sub .., binary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..⟩

/-- The run's fold over a launch valuation, read at every buffer. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather in
set_option maxRecDepth 8192 in
/-- The fold read at the result buffer is the staged term of the six arguments: each operation's result at its own
    buffer is its function of its operands' contents, and the named stages are those functions composed in the
    program's order. -/
theorem out_eq (V : Valuation τ sig (Elt F)) :
    after ops V (main_v32 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

/-- On the device, for any float values, from any memory with zero counters: every weakly fair execution of @main
    terminates with the result buffer at the staged term of the six arguments' launch contents, and the six argument
    buffers unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v32).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_main m ρ)

end Cert.ReferenceIdeal.RefValue

end
-- ==== Proof.RefTake.lean ====
/-
  The table lookup of the reference, read at an index: the positions 0..127 are never negative and always
  inside the table, so the looked-up array is the table itself, row l at position l.
-/
import proofs.«170738_g9354438771293_cont_9to1_m_169_2_alg».proof.Proof.RefTerm
import Idealize.ShloMosaic.Lib.ValueIdx
import Idealize.ShloMosaic.Lib.IdealHost
import Idealize.ShloMosaic.Lib.Pipeline.Value
import Idealize.ShloMosaic.Lib.ReduceAll

noncomputable section

namespace Cert.ReferenceIdeal.RefValue

open Cert.ReferenceIdeal Cert.ReferenceIdeal.Gen Idealize.ShloMosaic Idealize.ShloMosaic.ValueIdx

/-- Position l of the position array is the word l. -/
theorem pos_apply (l : Fin 128) : pos (ix3 (0 : Fin 1) (0 : Fin 1) l) = BitVec.ofNat 32 l.val := rfl

/-- No position below 128 is negative as a signed 32-bit word. -/
theorem pos_not_neg : ∀ l : Fin 128, IntOp.cmpi .slt (BitVec.ofNat 32 l.val) 0#32 = 0#1 := by decide

/-- The wrap-around leaves every position unchanged. -/
theorem wrapped_apply (l : Fin 128) : wrapped (ix3 (0 : Fin 1) (0 : Fin 1) l) = BitVec.ofNat 32 l.val := by
  unfold wrapped
  rw [select_apply]
  show Scalar.select (IntOp.cmpi .slt (pos (ix3 (0 : Fin 1) (0 : Fin 1) l)) 0#32) _ _ = _
  rw [pos_apply, pos_not_neg, select_zero]

/-- The start index of position l is the word l. -/
theorem startIdx_apply (l : Fin 128) : startIdx (ix4 (0 : Fin 1) (0 : Fin 1) l (0 : Fin 1)) = BitVec.ofNat 32 l.val := by
  unfold startIdx
  rw [broadcastInDim_apply _ _ _ _ (ix3 (0 : Fin 1) (0 : Fin 1) l) (fun a => by
    match a with
    | ⟨0, _⟩ => rfl
    | ⟨1, _⟩ => rfl
    | ⟨2, _⟩ => rfl)]
  exact wrapped_apply l

/-- Every position below 128 lies in the table's row range 0..127. -/
theorem pos_in_range : ∀ l : Fin 128,
    IntOp.andi (IntOp.cmpi .sge (BitVec.ofNat 32 l.val) 0#32) (IntOp.cmpi .sle (BitVec.ofNat 32 l.val) 127#32) = 1#1 := by
  decide

/-- A left fold by "and" from 1 over words that are all 1 is 1. -/
theorem foldl_andi_one {ι : Type} (f : ι → BitVec 1) (L : List ι) (hf : ∀ n ∈ L, f n = 1#1) :
    L.foldl (fun r n => IntOp.andi r (f n)) 1#1 = 1#1 := by
  induction L with
  | nil => rfl
  | cons n L ih =>
    rw [List.foldl_cons, hf n (List.mem_cons_self ..)]
    exact ih (fun m hm => hf m (List.mem_cons_of_mem _ hm))

/-- Every position is in range. -/
theorem inRange_apply (j : S1x1x128.Idx) : inRange j = 1#1 := by
  unfold inRange
  rw [Host.reduce_eq_foldl]
  refine foldl_andi_one _ _ (fun i _ => ?_)
  obtain ⟨a, b, l, d, rfl⟩ : ∃ (a b : Fin 1) (l : Fin 128) (d : Fin 1), i = ix4 a b l d := ⟨i 0, i 1, i 2, i 3, eq_ix4 i⟩
  obtain rfl : a = 0 := Subsingleton.elim _ _
  obtain rfl : b = 0 := Subsingleton.elim _ _
  obtain rfl : d = 0 := Subsingleton.elim _ _
  show IntOp.andi (IntOp.cmpi .sge (startIdx (ix4 (0 : Fin 1) (0 : Fin 1) l (0 : Fin 1))) 0#32)
    (IntOp.cmpi .sle (startIdx (ix4 (0 : Fin 1) (0 : Fin 1) l (0 : Fin 1))) 127#32) = 1#1
  rw [startIdx_apply]
  exact pos_in_range l

/-- The gather read at (0, 0, l, d): the table at the row its start index names (read signed, clamped into 0..127),
    column d. -/
theorem gather_apply {α : Type} (T : S128x128.Idx → α) (idx : IVec S1x1x128x1 32) (l d : Fin 128) :
    Host.gather gather_S128x128_S1x1x128x1_S1x1x128x128_3_0_n_n_0_3_1128 T idx (ix4 (0 : Fin 1) (0 : Fin 1) l d)
      = T (ix2 (⟨min (idx (ix4 (0 : Fin 1) (0 : Fin 1) l (0 : Fin 1))).toInt.toNat 127, by omega⟩ : Fin 128) d) := by
  unfold Host.gather
  congr 1
  funext a
  refine Fin.ext ?_
  match a with
  | ⟨0, _⟩ =>
    show gather_S128x128_S1x1x128x1_S1x1x128x128_3_0_n_n_0_3_1128.start _ idx 0
        + gather_S128x128_S1x1x128x1_S1x1x128x128_3_0_n_n_0_3_1128.batchCoord _ 0
        + gather_S128x128_S1x1x128x1_S1x1x128x128_3_0_n_n_0_3_1128.offCoord _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S128x128_S1x1x128x1_S1x1x128x128_3_0_n_n_0_3_1128.startIndexMap from
      List.mem_singleton.mpr rfl)]
    have hsi : gather_S128x128_S1x1x128x1_S1x1x128x128_3_0_n_n_0_3_1128.siIdx (ix4 (0 : Fin 1) (0 : Fin 1) l d)
        ⟨List.idxOf (0 : Fin 2) gather_S128x128_S1x1x128x1_S1x1x128x128_3_0_n_n_0_3_1128.startIndexMap,
          List.idxOf_lt_length_iff.2 (List.mem_singleton.mpr rfl)⟩ = ix4 (0 : Fin 1) (0 : Fin 1) l (0 : Fin 1) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show gather_S128x128_S1x1x128x1_S1x1x128x128_3_0_n_n_0_3_1128.start _ idx 1
        + gather_S128x128_S1x1x128x1_S1x1x128x128_3_0_n_n_0_3_1128.batchCoord _ 1
        + gather_S128x128_S1x1x128x1_S1x1x128x128_3_0_n_n_0_3_1128.offCoord _ 1 = d.val
    rw [GatherDims.batchCoord_eq_zero _ _ _ List.not_mem_nil]
    unfold GatherDims.start
    rw [dif_neg (show ¬ (1 : Fin 2) ∈ gather_S128x128_S1x1x128x1_S1x1x128x128_3_0_n_n_0_3_1128.startIndexMap from by decide)]
    simp only [Nat.add_zero, Nat.zero_add]
    unfold GatherDims.offCoord
    rw [dif_pos (show (1 : Fin 2) ∈ gather_S128x128_S1x1x128x1_S1x1x128x128_3_0_n_n_0_3_1128.sKept from by decide)]
    rfl

/-- Read signed and clamped into 0..127, the word l is l. -/
theorem clamp_pos : ∀ l : Fin 128, min (BitVec.ofNat 32 l.val).toInt.toNat 127 = l.val := by decide

variable {F : FTy → Type} [FloatOps F]

/-- The looked-up table is the table: row l at position l. The fill value is never read. -/
theorem taken_apply (emb : FVec F S128x128 .f32) (l d : Fin 128) :
    taken emb (ix4 (0 : Fin 1) (0 : Fin 1) l d) = emb (ix2 l d) := by
  unfold taken
  rw [select_apply,
    show broadcastInDim S1x1x128x128 ![0, 1, 2] bcast_S1x1x128_S1x1x128x128_0_1_2 inRange (ix4 (0 : Fin 1) (0 : Fin 1) l d) = 1#1
      from inRange_apply _,
    select_one, gather_apply]
  congr 1
  funext a
  refine Fin.ext ?_
  match a with
  | ⟨0, _⟩ =>
    show min (startIdx (ix4 (0 : Fin 1) (0 : Fin 1) l (0 : Fin 1))).toInt.toNat 127 = l.val
    rw [startIdx_apply]
    exact clamp_pos l
  | ⟨1, _⟩ => rfl

end Cert.ReferenceIdeal.RefValue

end
-- ==== Proof.RefRead.lean ====
/-
  The reference's result read at an index: the row before normalisation is the projection plus the bias plus the
  table's row, and the layer normalisation over the last axis is the mean / variance / square-root formula over
  plain coordinates.
-/
import proofs.«170738_g9354438771293_cont_9to1_m_169_2_alg».proof.Proof.RefTake
import proofs.«170738_g9354438771293_cont_9to1_m_169_2_alg».proof.Proof.LNSpec
import Idealize.ShloMosaic.PureOps.Ideal.Laws
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx

/-- The projection's contraction sum at (n, c, l, d) is the sum over the 64 input coordinates of x[n,c,l,p] · W[d,p]. -/
theorem proj_sum (D : DotDims S16x32x128x64 S128x64 S16x32x128x128)
    (h1 : D.lhsContracting = [3]) (h2 : D.rhsContracting = [1]) (h3 : D.lhsNonContracting = [0, 1, 2])
    (h4 : D.rhsNonContracting = [0]) (h5 : D.lhsBatch = []) (h6 : D.rhsBatch = [])
    (x : FVec Ideal S16x32x128x64 .f32) (W : FVec Ideal S128x64 .f32) (n : Fin 16) (c : Fin 32) (l : Fin 128) (d : Fin 128) :
    ∑ k : D.contr.Idx, x (D.lhsIdx (ix4 n c l d) k) * W (D.rhsIdx (ix4 n c l d) k)
      = ∑ p : Fin 64, x (ix4 n c l p) * W (ix2 d p) := by
  obtain ⟨lc, rc, ln, rn, lb, rb, wf⟩ := D
  dsimp only at h1 h2 h3 h4 h5 h6
  subst h1 h2 h3 h4 h5 h6
  generalize hD : (⟨[3], [1], [0, 1, 2], [0], [], [], wf⟩ : DotDims S16x32x128x64 S128x64 S16x32x128x128) = D
  have hr : D.contr.rank = 1 := by subst hD; rfl
  have hs : D.contr.size ⟨0, by omega⟩ = 64 := by subst hD; rfl
  rw [← Equiv.sum_comp (contrEquiv1 D 64 hr hs).symm]
  refine Finset.sum_congr rfl fun k _ => ?_
  have hk := contrEquiv1_symm_val D 64 hr hs k
  have hlc : D.lhsContracting = [3] := by subst hD; rfl
  have hrc : D.rhsContracting = [1] := by subst hD; rfl
  have el : D.lhsIdx (ix4 n c l d) ((contrEquiv1 D 64 hr hs).symm k) = ix4 n c l k := funext fun a => Fin.ext (by
    match a with
    | ⟨0, _⟩ =>
      subst hD
      rfl
    | ⟨1, _⟩ =>
      subst hD
      rfl
    | ⟨2, _⟩ =>
      subst hD
      rfl
    | ⟨3, _⟩ => exact (D.lhsIdx_val_of_single hlc _ _).trans hk)
  have er : D.rhsIdx (ix4 n c l d) ((contrEquiv1 D 64 hr hs).symm k) = ix2 d k := funext fun a => Fin.ext (by
    match a with
    | ⟨0, _⟩ =>
      subst hD
      rfl
    | ⟨1, _⟩ => exact (D.rhsIdx_val_of_single hrc _ _).trans hk)
  rw [el, er]

/-- A vector broadcast along the last axis of a rank-4 array reads its coordinate d. -/
theorem bcastLast_apply (v : FVec Ideal S128 .f32) (n : Fin 16) (c : Fin 32) (l : Fin 128) (d : Fin 128) :
    broadcastInDim S16x32x128x128 ![0, 1, 2, 3] bcast_S1x1x1x128_S16x32x128x128_0_1_2_3
      (broadcastInDim S1x1x1x128 ![3] bcast_S128_S1x1x1x128_3 v) (ix4 n c l d) = v (ix1 d) := by
  rw [broadcastInDim_apply _ _ _ _ (ix4 (0 : Fin 1) (0 : Fin 1) (0 : Fin 1) d) (fun a => by
      match a with
      | ⟨0, _⟩ => rfl
      | ⟨1, _⟩ => rfl
      | ⟨2, _⟩ => rfl
      | ⟨3, _⟩ => rfl),
    broadcastInDim_apply _ _ _ _ (ix1 d) (fun a => by
      match a with
      | ⟨0, _⟩ => rfl)]

/-- The row before normalisation at (n, c, l, d): the projection plus the bias plus the table's row l. -/
theorem pre_apply (x : FVec Ideal S16x32x128x64 .f32) (emb : FVec Ideal S128x128 .f32) (W : FVec Ideal S128x64 .f32)
    (b : FVec Ideal S128 .f32) (n : Fin 16) (c : Fin 32) (l : Fin 128) (d : Fin 128) :
    pre (F := Ideal) x emb W b (ix4 n c l d) = Cert.LNSpec.rowBiasThenEmb x emb W b n c l d := by
  unfold pre
  rw [addf_apply, addf_apply, bcastLast_apply]
  rw [broadcastInDim_apply _ _ (taken emb) (ix4 n c l d) (ix4 (0 : Fin 1) (0 : Fin 1) l d) (fun a => by
      match a with
      | ⟨0, _⟩ => rfl
      | ⟨1, _⟩ => rfl
      | ⟨2, _⟩ => rfl
      | ⟨3, _⟩ => rfl), taken_apply]
  simp only [Host.dotGeneral]
  rw [Ideal.dotGeneral_apply, proj_sum _ rfl rfl rfl rfl rfl rfl]
  rfl

/-- The sum over the last axis, kept as a unit axis, read at (n, c, l, 0): the sum of the row's 128 entries. -/
theorem reduceLast_apply (z : FVec Ideal S16x32x128x128 .f32) (n : Fin 16) (c : Fin 32) (l : Fin 128) :
    broadcastInDim S16x32x128x1 ![0, 1, 2] bcast_S16x32x128_S16x32x128x1_0_1_2
      (Host.reduceAdd z (constant S_ .f32 0x00000000#32) reducesTo_S16x32x128x128_S16x32x128_d3 h_S_)
      (ix4 n c l (0 : Fin 1)) = ∑ d : Fin 128, z (ix4 n c l d) := by
  rw [broadcastInDim_apply _ _ _ _ (ix3 n c l) (fun a => by
      match a with
      | ⟨0, _⟩ => rfl
      | ⟨1, _⟩ => rfl
      | ⟨2, _⟩ => rfl),
    hostReduceAdd_apply,
    Ideal.hostReduceAdd_single reducesTo_S16x32x128x128_S16x32x128_d3
      (by decide : S16x32x128x128.Reduces [3] S16x32x128)]
  rw [constant_apply, Ideal.ofBits_zero_f32, zero_add]
  refine Finset.sum_congr rfl fun d _ => congrArg z (funext fun a => Fin.ext ?_)
  match a with
  | ⟨0, _⟩ => rfl
  | ⟨1, _⟩ => rfl
  | ⟨2, _⟩ => rfl
  | ⟨3, _⟩ => rfl

/-- The mean of row (n, c, l). -/
theorem mean_apply (y : FVec Ideal S16x32x128x128 .f32) (n : Fin 16) (c : Fin 32) (l : Fin 128) :
    mean (F := Ideal) y (ix4 n c l (0 : Fin 1)) = Cert.LNSpec.rowMean (fun d => y (ix4 n c l d)) := by
  unfold mean
  rw [hostDivf_apply, reduceLast_apply]
  rfl

/-- The centred row at (n, c, l, d). -/
theorem centred_apply (y : FVec Ideal S16x32x128x128 .f32) (n : Fin 16) (c : Fin 32) (l : Fin 128) (d : Fin 128) :
    centred (F := Ideal) y (ix4 n c l d) = y (ix4 n c l d) - Cert.LNSpec.rowMean (fun d => y (ix4 n c l d)) := by
  unfold centred
  rw [subf_apply, broadcastInDim_apply _ _ _ _ (ix4 n c l (0 : Fin 1)) (fun a => by
      match a with
      | ⟨0, _⟩ => rfl
      | ⟨1, _⟩ => rfl
      | ⟨2, _⟩ => rfl
      | ⟨3, _⟩ => rfl), mean_apply]

/-- The variance of row (n, c, l). -/
theorem variance_apply (y : FVec Ideal S16x32x128x128 .f32) (n : Fin 16) (c : Fin 32) (l : Fin 128) :
    variance (F := Ideal) y (ix4 n c l (0 : Fin 1)) = Cert.LNSpec.rowVar (fun d => y (ix4 n c l d)) := by
  unfold variance
  rw [hostDivf_apply, reduceLast_apply]
  simp only [mulf_apply, centred_apply]
  rfl

/-- The normalised, scaled and shifted row at (n, c, l, d). -/
theorem normalised_apply (y : FVec Ideal S16x32x128x128 .f32) (g bt : FVec Ideal S128 .f32)
    (n : Fin 16) (c : Fin 32) (l : Fin 128) (d : Fin 128) :
    normalised (F := Ideal) y g bt (ix4 n c l d)
      = Cert.LNSpec.lnDiv (fun d => y (ix4 n c l d)) (fun d => g (ix1 d)) (fun d => bt (ix1 d)) d := by
  unfold normalised
  rw [addf_apply, mulf_apply, hostDivf_apply, bcastLast_apply, bcastLast_apply, centred_apply,
    broadcastInDim_apply _ _ _ _ (ix4 n c l (0 : Fin 1)) (fun a => by
      match a with
      | ⟨0, _⟩ => rfl
      | ⟨1, _⟩ => rfl
      | ⟨2, _⟩ => rfl
      | ⟨3, _⟩ => rfl)]
  show Ideal.div _ (Ideal.sqrt (variance (F := Ideal) y (ix4 n c l (0 : Fin 1)) + Ideal.ofBits .f32 0x3727C5AC#32)) * _ + _ = _
  rw [variance_apply]
  rfl

/-- The reference's result is the layer normalisation of (projection + bias) + table row, dividing by the square root. -/
theorem refTerm_eq (x : FVec Ideal S16x32x128x64 .f32) (emb : FVec Ideal S128x128 .f32) (W : FVec Ideal S128x64 .f32)
    (b g bt : FVec Ideal S128 .f32) :
    refTerm (F := Ideal) x emb W b g bt = Cert.LNSpec.outDiv x emb W b g bt := by
  funext i
  obtain ⟨n, c, l, d, rfl⟩ : ∃ (n : Fin 16) (c : Fin 32) (l : Fin 128) (d : Fin 128), i = ix4 n c l d :=
    ⟨i 0, i 1, i 2, i 3, eq_ix4 i⟩
  unfold refTerm
  rw [normalised_apply]
  simp only [pre_apply]
  rfl

end Cert.ReferenceIdeal.RefValue

end
-- ==== Proof.LNAlgebra.lean ====
/-
  The two readings of the layer normalisation agree on the extended reals.

  The variance of a row is a mean of squares, hence not negative, and ε is positive, so v = variance + ε is
  positive (possibly +∞).  For positive v the reciprocal square root is the inverse of the square root (both
  are 0 and +∞ resp. at v = +∞, where the inverse of +∞ is 0), so multiplying by one is dividing by the other —
  for every numerator, infinite ones included.  Adding the bias before or after the table entry is
  associativity and commutativity of the sum, which hold on the extended reals without exception.
-/
import proofs.«170738_g9354438771293_cont_9to1_m_169_2_alg».proof.Proof.LNSpec

noncomputable section

open scoped BigOperators

namespace Cert.LNSpec

open Idealize.ShloMosaic Idealize.ShloMosaic.ValueIdx

/-- A square is not negative, at the infinities too. -/
theorem mul_self_nonneg' (x : EReal) : 0 ≤ x * x := by
  rcases le_total 0 x with h | h
  · exact EReal.mul_nonneg h h
  · have h' : 0 ≤ -x := EReal.neg_nonneg.mpr h
    have := EReal.mul_nonneg h' h'
    rwa [neg_mul_neg] at this

/-- The word 0x43000000 is the real 128. -/
theorem c128_eq : c128 = ((128 : ℝ) : EReal) := by
  unfold c128
  simp [Ideal.ofBits, Ideal.ieee, -EReal.coe_mul]
  norm_num

/-- ε is a positive real. -/
theorem eps_pos : 0 < eps := by
  unfold eps
  simp [Ideal.ofBits, Ideal.ieee, -EReal.coe_mul]

/-- Dividing by 128 keeps a non-negative value non-negative. -/
theorem div_c128_nonneg {s : EReal} (h : 0 ≤ s) : 0 ≤ Ideal.div s c128 := by
  rw [c128_eq, Ideal.div_coe (by norm_num : (128 : ℝ) ≠ 0)]
  exact EReal.mul_nonneg h (by exact_mod_cast (by norm_num : (0 : ℝ) ≤ 1 / 128))

/-- The variance of a row is not negative. -/
theorem rowVar_nonneg (y : Fin 128 → EReal) : 0 ≤ rowVar y :=
  div_c128_nonneg (Finset.sum_nonneg fun d _ => mul_self_nonneg' _)

/-- variance + ε is positive. -/
theorem rowVar_add_eps_pos (y : Fin 128 → EReal) : 0 < rowVar y + eps :=
  lt_of_lt_of_le eps_pos (le_add_of_nonneg_left (rowVar_nonneg y))

/-- For positive v (possibly +∞), multiplying by the reciprocal square root is dividing by the square root. -/
theorem mul_rsqrt_eq_div_sqrt (a v : EReal) (hv : 0 < v) : a * Ideal.rsqrt v = Ideal.div a (Ideal.sqrt v) := by
  induction v using EReal.rec with
  | bot => exact absurd hv (not_lt.mpr bot_le)
  | top =>
    rw [Ideal.rsqrt_top, Ideal.sqrt_top, Ideal.div, if_neg EReal.top_ne_zero, EReal.inv_top]
  | coe r =>
    have hr : 0 < r := by exact_mod_cast hv
    have hs : 0 < Real.sqrt r := Real.sqrt_pos.mpr hr
    rw [Ideal.rsqrt_coe, Ideal.sqrt_coe, if_neg (not_lt.mpr hr.le), if_neg hr.ne', if_neg (not_lt.mpr hr.le),
      Ideal.div, if_neg (by exact_mod_cast hs.ne'), EReal.coe_inv]

/-- The two readings of a row's layer normalisation are one function. -/
theorem lnRsqrt_eq_lnDiv (y g bt : Fin 128 → EReal) (d : Fin 128) : lnRsqrt y g bt d = lnDiv y g bt d := by
  unfold lnRsqrt lnDiv
  rw [mul_rsqrt_eq_div_sqrt _ _ (rowVar_add_eps_pos y)]

/-- Folding the bias into the table entry, or adding it first: one row. -/
theorem rowFoldedBias_eq (x : FVec Ideal ⟨4, ![16, 32, 128, 64]⟩ .f32) (emb : FVec Ideal ⟨2, ![128, 128]⟩ .f32)
    (W : FVec Ideal ⟨2, ![128, 64]⟩ .f32) (b : FVec Ideal ⟨1, ![128]⟩ .f32) (n : Fin 16) (c : Fin 32) (l : Fin 128) :
    rowFoldedBias x emb W b n c l = rowBiasThenEmb x emb W b n c l := by
  funext d
  unfold rowFoldedBias rowBiasThenEmb
  rw [add_assoc, add_comm (b (ix1 d))]

/-- The two whole results are one array. -/
theorem outRsqrt_eq_outDiv (x : FVec Ideal ⟨4, ![16, 32, 128, 64]⟩ .f32) (emb : FVec Ideal ⟨2, ![128, 128]⟩ .f32)
    (W : FVec Ideal ⟨2, ![128, 64]⟩ .f32) (b g bt : FVec Ideal ⟨1, ![128]⟩ .f32) :
    outRsqrt x emb W b g bt = outDiv x emb W b g bt := by
  funext i
  exact (congrArg (fun y => lnRsqrt y (fun d => g (ix1 d)) (fun d => bt (ix1 d)) (i 3))
    (rowFoldedBias_eq x emb W b (i 0) (i 1) (i 2))).trans (lnRsqrt_eq_lnDiv _ _ _ (i 3))

end Cert.LNSpec

end
-- ==== Proof.lean ====
/-
  The certificate: a fused kernel for  LayerNorm(x · Wᵀ + b + emb[l])  against its plain reference.

  Both idealized programs end with the same array of extended reals.  The kernel folds the bias into the table
  on the host, runs one region over eight blocks of 64 groups of 128 tokens, and normalises each token's row by
  multiplying with the reciprocal square root of (variance + ε); the reference looks the table rows up by their
  positions 0 … 127 (an identity lookup), adds bias and table row in the other order, and divides by the square
  root.  The sums agree by associativity and commutativity; variance + ε is positive, so the reciprocal square
  root is the inverse of the square root and the two normalisations agree on every extended real.  No rewrite
  was applied when the kernel was idealized, so that conjunct is trivial; the three frames are the generated
  ones (the reference's is its run with the result dropped).
-/
import proofs.«170738_g9354438771293_cont_9to1_m_169_2_alg».proof.Defs
import proofs.«170738_g9354438771293_cont_9to1_m_169_2_alg».proof.Proof.Gen.Kernel
import proofs.«170738_g9354438771293_cont_9to1_m_169_2_alg».proof.Proof.Gen.Kernel.Frame
import proofs.«170738_g9354438771293_cont_9to1_m_169_2_alg».proof.Proof.Gen.KernelIdeal
import proofs.«170738_g9354438771293_cont_9to1_m_169_2_alg».proof.Proof.Gen.KernelIdeal.Frame
import proofs.«170738_g9354438771293_cont_9to1_m_169_2_alg».proof.Proof.Gen.ReferenceIdeal
import proofs.«170738_g9354438771293_cont_9to1_m_169_2_alg».proof.Proof.Gen.Pre_finite_inputs
import proofs.«170738_g9354438771293_cont_9to1_m_169_2_alg».proof.Proof.KerRun
import proofs.«170738_g9354438771293_cont_9to1_m_169_2_alg».proof.Proof.RefRun
import proofs.«170738_g9354438771293_cont_9to1_m_169_2_alg».proof.Proof.RefRead
import proofs.«170738_g9354438771293_cont_9to1_m_169_2_alg».proof.Proof.LNAlgebra
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both runs end at one array: the kernel's at the reciprocal-square-root reading of the specification, the
    reference's at the square-root reading, of arguments that agree; the two readings are one function. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2]
  exact (Cert.ReferenceIdeal.RefValue.refTerm_eq _ _ _ _ _ _).trans (Cert.LNSpec.outRsqrt_eq_outDiv _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
